-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S100000 : Shape := ⟨1, ![100000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S32 .f32) (main_arg7 : FVec F S32x2 .f32) (main_arg8 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg7
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x6 .f32) (main_arg1 : IVec S2x3200000 32) (main_arg2 : IVec S100000 32) (main_arg3 : FVec F S6x64 .f32) (main_arg4 : FVec F S64 .f32) (main_arg5 : FVec F S64x32 .f32) (main_arg6 : FVec F S32 .f32) (main_arg7 : FVec F S32x2 .f32) (main_arg8 : FVec F S2 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x64 .f32 := Host.absf main_arg3
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x6 : Shape := ⟨2, ![100000, 6]⟩
abbrev S2x3200000 : Shape := ⟨2, ![2, 3200000]⟩
abbrev S100000 : Shape := ⟨1, ![100000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x6 : Shape := ⟨2, ![10000, 6]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S1024x32 : Shape := ⟨2, ![1024, 32]⟩
abbrev S100000x1 : Shape := ⟨2, ![100000, 1]⟩
abbrev S1024 : Shape := ⟨1, ![1024]⟩
abbrev S1024x1 : Shape := ⟨2, ![1024, 1]⟩
abbrev S1x2 : Shape := ⟨2, ![1, 2]⟩
abbrev S1024x2 : Shape := ⟨2, ![1024, 2]⟩

abbrev nBuf : Space → Nat
  | .hbm => 100
  | .vmem => 20
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S100000, .i32⟩
  | .hbm, ⟨3, _⟩ => ⟨S6x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x64, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x1, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x32, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x32, .f32⟩
  | .hbm, ⟨73, _⟩ => ⟨S3300000x1, .f32⟩
  | .hbm, ⟨74, _⟩ => ⟨S3300000x32, .f32⟩
  | .hbm, ⟨75, _⟩ => ⟨S3300000x32, .f32⟩
  | .hbm, ⟨76, _⟩ => ⟨S_, .f32⟩
  | .hbm, ⟨77, _⟩ => ⟨S100000x32, .f32⟩
  | .hbm, ⟨78, _⟩ => ⟨S3300000x1, .i32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S_, .f32⟩
  | .hbm, ⟨83, _⟩ => ⟨S1024x32, .f32⟩
  | .hbm, ⟨84, _⟩ => ⟨S100000x1, .i32⟩
  | .hbm, ⟨85, _⟩ => ⟨S1024x32, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S1024, .f32⟩
  | .hbm, ⟨90, _⟩ => ⟨S100000x1, .i32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024x1, .f32⟩
  | .hbm, ⟨96, _⟩ => ⟨S1024x32, .f32⟩
  | .hbm, ⟨97, _⟩ => ⟨S1024x32, .f32⟩
  | .hbm, ⟨98, _⟩ => ⟨S1x2, .f32⟩
  | .hbm, ⟨99, _⟩ => ⟨S1024x2, .f32⟩
  | .local _ .vmem, ⟨0, _⟩ => ⟨S10000x6, .f32⟩
  | .local _ .vmem, ⟨1, _⟩ => ⟨S10000x6, .f32⟩
  | .local _ .vmem, ⟨2, _⟩ => ⟨S6x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S1024x32, .f32⟩
  | .local _ .vmem, ⟨17, _⟩ => ⟨S32x2, .f32⟩
  | .local _ .vmem, ⟨18, _⟩ => ⟨S1x2, .f32⟩
  | .local _ .vmem, ⟨19, _⟩ => ⟨S1024x2, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S1024x32 : S_.BroadcastsInDim S1024x32 (![] : Fin 0 → Fin S1024x32.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  shapeCasts_S2_S1x2 : S2.ShapeCasts S1x2
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x6_S6x64_S10000x64_1_0_0_1_n_n_wf : DotDims.WF S10000x6 S6x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x2_S1024x2_1_0_0_1_n_n_wf : DotDims.WF S1024x32 S32x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S1024x32.size a
  hwx3_0 : ∀ i : grid3.Coords, EltTy.bits .f32 = 32 ∨ (Rect.block (s := S1024x32) S1024x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x2.size a ≤ S32x2.size a
  hwx3_1 : ∀ i : grid3.Coords, EltTy.bits .f32 = 32 ∨ (Rect.block (s := S32x2) S32x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x2.size a ≤ S1024x2.size a
  hwx3_3 : ∀ i : grid3.Coords, EltTy.bits .f32 = 32 ∨ (Rect.block (s := S1024x2) S1024x2.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S1024x32.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1024x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S100000 : Shape := ⟨1, ![100000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S1024x32 : Shape := ⟨2, ![1024, 32]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 140
  | .vmem => 0
  | .smem => 0
  | _ => 0

abbrev hbmTy0_0 (i : Nat) : BufTy := match i % 128 with
  | 0 => ⟨S100000x6, .f32⟩
  | 1 => ⟨S2x3200000, .i32⟩
  | 2 => ⟨S100000, .i32⟩
  | 3 => ⟨S6x64, .f32⟩
  | 4 => ⟨S64, .f32⟩
  | 5 => ⟨S64x32, .f32⟩
  | 6 => ⟨S32, .f32⟩
  | 7 => ⟨S32x2, .f32⟩
  | 8 => ⟨S2, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S100000x64, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x64, .f32⟩
  | 55 => ⟨S3300000x1, .f32⟩
  | 56 => ⟨S3300000x64, .f32⟩
  | 57 => ⟨S3300000x64, .f32⟩
  | 58 => ⟨S_, .f32⟩
  | 59 => ⟨S100000x64, .f32⟩
  | 60 => ⟨S3300000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S_, .f32⟩
  | 67 => ⟨S100000x64, .f32⟩
  | 68 => ⟨S100000x64, .i1⟩
  | 69 => ⟨S_, .f32⟩
  | 70 => ⟨S100000x64, .f32⟩
  | 71 => ⟨S100000x64, .f32⟩
  | 72 => ⟨S100000x64, .f32⟩
  | 73 => ⟨S100000x32, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000x32, .f32⟩
  | 102 => ⟨S3300000x1, .f32⟩
  | 103 => ⟨S3300000x32, .f32⟩
  | 104 => ⟨S3300000x32, .f32⟩
  | 105 => ⟨S_, .f32⟩
  | 106 => ⟨S100000x32, .f32⟩
  | 107 => ⟨S3300000x1, .i32⟩
  | 108 => ⟨S100000x32, .f32⟩
  | 109 => ⟨S1x32, .f32⟩
  | 110 => ⟨S100000x32, .f32⟩
  | 111 => ⟨S100000x32, .f32⟩
  | 112 => ⟨S_, .f32⟩
  | 113 => ⟨S_, .f32⟩
  | 114 => ⟨S100000x32, .f32⟩
  | 115 => ⟨S100000x32, .i1⟩
  | 116 => ⟨S_, .f32⟩
  | 117 => ⟨S100000x32, .f32⟩
  | 118 => ⟨S100000x32, .f32⟩
  | 119 => ⟨S100000x32, .f32⟩
  | 120 => ⟨S_, .f32⟩
  | 121 => ⟨S1024x32, .f32⟩
  | 122 => ⟨S100000x1, .i32⟩
  | 123 => ⟨S1024x32, .f32⟩
  | 124 => ⟨S_, .f32⟩
  | 125 => ⟨S100000, .f32⟩
  | 126 => ⟨S_, .f32⟩
  | 127 => ⟨S1024, .f32⟩
  | _ => ⟨S100000x6, .f32⟩

abbrev hbmTy0_1 (i : Nat) : BufTy := match i % 128 with
  | 0 => ⟨S100000x1, .i32⟩
  | 1 => ⟨S1024, .f32⟩
  | 2 => ⟨S_, .f32⟩
  | 3 => ⟨S1024, .f32⟩
  | 4 => ⟨S1024, .f32⟩
  | 5 => ⟨S1024x1, .f32⟩
  | 6 => ⟨S1024x32, .f32⟩
  | 7 => ⟨S1024x32, .f32⟩
  | 8 => ⟨S1024x2, .f32⟩
  | 9 => ⟨S1x2, .f32⟩
  | 10 => ⟨S1024x2, .f32⟩
  | 11 => ⟨S1024x2, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_cst_19 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_20 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1024x32 : S_.BroadcastsInDim S1024x32 (![] : Fin 0 → Fin S1024x32.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S3300000x1_S3300000_n_0_0_1_wf : ScatterDims.WF S100000 S3300000x1 S3300000 [] [0] [0] 1
  dot_S100000x6_S6x64_S100000x64_1_0_0_1_n_n_wf : DotDims.WF S100000x6 S6x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x2_S1024x2_1_0_0_1_n_n_wf : DotDims.WF S1024x32 S32x2 S1024x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf

class Facts : Prop extends Facts₀ where

variable [Facts]
-- ==== Proof.Spec.lean ====
/-
  The computation both programs perform, stage by stage, as functions of whole arrays.

  A two-layer graph convolution with mean pooling.  From the edge list (two rows of node numbers) and the self loops
  the source and target node of every edge; the degree of a node is the number of edges arriving at it, and an edge's
  weight is rsqrt (max deg 1) at its source times the same at its target.  A layer multiplies the node features by a
  weight matrix, carries every source row along its edge scaled by the edge's weight, sums the rows arriving at each
  node, adds a bias row and applies x ↦ x if 0 ≤ x, 0.01 · x otherwise.  The second layer's node rows are averaged over
  the nodes of each graph, and a last dense layer with bias maps the averages to the result.

  Every stage is spelled with the host operations of the reference program, so that the reference's run is these stages
  by unfolding, and the kernel's host stretches are the same stages between its four kernel regions.
-/
import proofs.«144815_j14697378087275_1_alg».proof.ReferenceIdeal

noncomputable section

namespace Cert.Spec

open Idealize.ShloMosaic Cert.ReferenceIdeal

variable {F : FTy → Type} [FloatOps F] [Cert.ReferenceIdeal.Facts]
open Cert.ReferenceIdeal.Facts₀ Cert.ReferenceIdeal.Facts

/-- Row `r` of the edge list followed by the self loops 0 … 99999: one node number per edge. -/
def endpoints (r : Fin 2 → ℕ) (hs : S2x3200000.Slices r S1x3200000)
    (ei : (⟨S2x3200000, .i32⟩ : BufTy).Contents (Elt F)) : (⟨S3300000, .i32⟩ : BufTy).Contents (Elt F) :=
  concatenate S3300000 0 [⟨S3200000, shapeCast S3200000 (extractStridedSlice S1x3200000 r ei hs) shapeCasts_S1x3200000_S3200000⟩,
    ⟨S100000, iotaInDim S100000 32 0⟩] concatenates_S3200000_S100000_S3300000_d0

/-- The source node of every edge. -/
def src (ei : (⟨S2x3200000, .i32⟩ : BufTy).Contents (Elt F)) : (⟨S3300000, .i32⟩ : BufTy).Contents (Elt F) :=
  endpoints ![0, 0] slices_S2x3200000_S1x3200000_0_0 ei

/-- The target node of every edge. -/
def dst (ei : (⟨S2x3200000, .i32⟩ : BufTy).Contents (Elt F)) : (⟨S3300000, .i32⟩ : BufTy).Contents (Elt F) :=
  endpoints ![1, 0] slices_S2x3200000_S1x3200000_1_0 ei

/-- A negative node number counts from the end: a + 100000 where a < 0. -/
def wrap (a : (⟨S3300000, .i32⟩ : BufTy).Contents (Elt F)) : (⟨S3300000, .i32⟩ : BufTy).Contents (Elt F) :=
  select (cmpi .slt a (broadcastInDim S3300000 ![] bcast_S_S3300000 (constantI S_ 32 0#32)))
    (addi a (broadcastInDim S3300000 ![] bcast_S_S3300000 (constantI S_ 32 100000#32))) a

/-- Node numbers as a one-column table of indices. -/
def col (a : (⟨S3300000, .i32⟩ : BufTy).Contents (Elt F)) : (⟨S3300000x1, .i32⟩ : BufTy).Contents (Elt F) :=
  broadcastInDim S3300000x1 ![0] bcast_S3300000_S3300000x1_0 a

/-- rsqrt (max deg 1) per node, deg the number of edges arriving at the node. -/
def dis (ei : (⟨S2x3200000, .i32⟩ : BufTy).Contents (Elt F)) : (⟨S100000, .f32⟩ : BufTy).Contents (Elt F) :=
  Host.rsqrt (maximumf
    (Host.scatterAdd scatter_S100000_S3300000x1_S3300000_n_0_0_1
      (broadcastInDim S100000 ![] bcast_S_S100000 (constant S_ .f32 0x00000000#32)) (col (dst ei))
      (broadcastInDim S3300000 ![] bcast_S_S3300000 (constant S_ .f32 0x3F800000#32)))
    (broadcastInDim S100000 ![] bcast_S_S100000 (constant S_ .f32 0x3F800000#32)))

/-- An edge's weight: dis at its source times dis at its target. -/
def norm (ei : (⟨S2x3200000, .i32⟩ : BufTy).Contents (Elt F)) : (⟨S3300000, .f32⟩ : BufTy).Contents (Elt F) :=
  mulf (Host.gather gather_S100000_S3300000x1_S3300000_n_0_n_n_0_1_1 (dis ei) (col (wrap (src ei))))
    (Host.gather gather_S100000_S3300000x1_S3300000_n_0_n_n_0_1_1 (dis ei) (col (wrap (dst ei))))

/-- Message passing over 64 features from given edge endpoints `s`, `d` and edge weights `nrm`: every source row scaled
    by its edge's weight, summed at the target node. -/
def aggregate64 (h : (⟨S100000x64, .f32⟩ : BufTy).Contents (Elt F)) (s d : (⟨S3300000, .i32⟩ : BufTy).Contents (Elt F))
    (nrm : (⟨S3300000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32)) (col d)
    (mulf (Host.gather gather_S100000x64_S3300000x1_S3300000x64_1_0_n_n_0_1_164 h (col (wrap s)))
      (broadcastInDim S3300000x64 ![0, 1] bcast_S3300000x1_S3300000x64_0_1
        (broadcastInDim S3300000x1 ![0] bcast_S3300000_S3300000x1_0 nrm)))

/-- The same over 32 features. -/
def aggregate32 (h : (⟨S100000x32, .f32⟩ : BufTy).Contents (Elt F)) (s d : (⟨S3300000, .i32⟩ : BufTy).Contents (Elt F))
    (nrm : (⟨S3300000, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant S_ .f32 0x00000000#32)) (col d)
    (mulf (Host.gather gather_S100000x32_S3300000x1_S3300000x32_1_0_n_n_0_1_132 h (col (wrap s)))
      (broadcastInDim S3300000x32 ![0, 1] bcast_S3300000x1_S3300000x32_0_1
        (broadcastInDim S3300000x1 ![0] bcast_S3300000_S3300000x1_0 nrm)))

/-- Message passing over 64 features along the edge list's own endpoints and weights. -/
def agg64 (h : (⟨S100000x64, .f32⟩ : BufTy).Contents (Elt F)) (ei : (⟨S2x3200000, .i32⟩ : BufTy).Contents (Elt F)) :
    (⟨S100000x64, .f32⟩ : BufTy).Contents (Elt F) :=
  aggregate64 h (src ei) (dst ei) (norm ei)

/-- Message passing over 32 features along the edge list's own endpoints and weights. -/
def agg32 (h : (⟨S100000x32, .f32⟩ : BufTy).Contents (Elt F)) (ei : (⟨S2x3200000, .i32⟩ : BufTy).Contents (Elt F)) :
    (⟨S100000x32, .f32⟩ : BufTy).Contents (Elt F) :=
  aggregate32 h (src ei) (dst ei) (norm ei)

/-- The mean of the node rows of each graph: the rows summed per graph, over max (number of nodes) 1. -/
def pooled (h : (⟨S100000x32, .f32⟩ : BufTy).Contents (Elt F)) (batch : (⟨S100000, .i32⟩ : BufTy).Contents (Elt F)) :
    (⟨S1024x32, .f32⟩ : BufTy).Contents (Elt F) :=
  Host.divf
    (Host.scatterAdd scatter_S1024x32_S100000x1_S100000x32_1_0_0_1
      (broadcastInDim S1024x32 ![] bcast_S_S1024x32 (constant S_ .f32 0x00000000#32))
      (broadcastInDim S100000x1 ![0] bcast_S100000_S100000x1_0 batch) h)
    (broadcastInDim S1024x32 ![0, 1] bcast_S1024x1_S1024x32_0_1
      (broadcastInDim S1024x1 ![0] bcast_S1024_S1024x1_0
        (maximumf
          (Host.scatterAdd scatter_S1024_S100000x1_S100000_n_0_0_1
            (broadcastInDim S1024 ![] bcast_S_S1024 (constant S_ .f32 0x00000000#32))
            (broadcastInDim S100000x1 ![0] bcast_S100000_S100000x1_0 batch)
            (broadcastInDim S100000 ![] bcast_S_S100000 (constant S_ .f32 0x3F800000#32)))
          (broadcastInDim S1024 ![] bcast_S_S1024 (constant S_ .f32 0x3F800000#32)))))

/-- The first layer's product: node features by the first weight matrix. -/
def dense1 (x : (⟨S100000x6, .f32⟩ : BufTy).Contents (Elt F)) (w : (⟨S6x64, .f32⟩ : BufTy).Contents (Elt F)) :
    (⟨S100000x64, .f32⟩ : BufTy).Contents (Elt F) :=
  Host.dotGeneral dot_S100000x6_S6x64_S100000x64_1_0_0_1_n_n none x w

/-- x ↦ x if 0 ≤ x, else 0.01 · x, entrywise on 64 features. -/
def leaky64 (a : (⟨S100000x64, .f32⟩ : BufTy).Contents (Elt F)) : (⟨S100000x64, .f32⟩ : BufTy).Contents (Elt F) :=
  select (cmpf .oge a (broadcastInDim S100000x64 ![] bcast_S_S100000x64 (constant S_ .f32 0x00000000#32))) a
    (mulf (broadcastInDim S100000x64 ![] bcast_S_S100000x64 (id (constant S_ .f32 0x3C23D70A#32))) a)

/-- The same on 32 features. -/
def leaky32 (a : (⟨S100000x32, .f32⟩ : BufTy).Contents (Elt F)) : (⟨S100000x32, .f32⟩ : BufTy).Contents (Elt F) :=
  select (cmpf .oge a (broadcastInDim S100000x32 ![] bcast_S_S100000x32 (constant S_ .f32 0x00000000#32))) a
    (mulf (broadcastInDim S100000x32 ![] bcast_S_S100000x32 (id (constant S_ .f32 0x3C23D70A#32))) a)

/-- The first layer's bias and activation, then the second layer's product, the bias given as a one-row matrix. -/
def layer2 (agg : (⟨S100000x64, .f32⟩ : BufTy).Contents (Elt F)) (row : (⟨S1x64, .f32⟩ : BufTy).Contents (Elt F))
    (w : (⟨S64x32, .f32⟩ : BufTy).Contents (Elt F)) : (⟨S100000x32, .f32⟩ : BufTy).Contents (Elt F) :=
  Host.dotGeneral dot_S100000x64_S64x32_S100000x32_1_0_0_1_n_n none
    (leaky64 (addf agg (broadcastInDim S100000x64 ![0, 1] bcast_S1x64_S100000x64_0_1 row))) w

/-- The second layer's bias and activation, the bias given as a one-row matrix. -/
def act3 (agg : (⟨S100000x32, .f32⟩ : BufTy).Contents (Elt F)) (row : (⟨S1x32, .f32⟩ : BufTy).Contents (Elt F)) :
    (⟨S100000x32, .f32⟩ : BufTy).Contents (Elt F) :=
  leaky32 (addf agg (broadcastInDim S100000x32 ![0, 1] bcast_S1x32_S100000x32_0_1 row))

/-- The last dense layer: the graph means by the last weight matrix, plus the bias given as a one-row matrix. -/
def final (p : (⟨S1024x32, .f32⟩ : BufTy).Contents (Elt F)) (w : (⟨S32x2, .f32⟩ : BufTy).Contents (Elt F))
    (row : (⟨S1x2, .f32⟩ : BufTy).Contents (Elt F)) : (⟨S1024x2, .f32⟩ : BufTy).Contents (Elt F) :=
  addf (Host.dotGeneral dot_S1024x32_S32x2_S1024x2_1_0_0_1_n_n none p w)
    (broadcastInDim S1024x2 ![0, 1] bcast_S1x2_S1024x2_0_1 row)

/-- The whole computation from the nine argument arrays, the three bias vectors laid as rows along their last axis. -/
def result (x : (⟨S100000x6, .f32⟩ : BufTy).Contents (Elt F)) (ei : (⟨S2x3200000, .i32⟩ : BufTy).Contents (Elt F))
    (batch : (⟨S100000, .i32⟩ : BufTy).Contents (Elt F)) (w1 : (⟨S6x64, .f32⟩ : BufTy).Contents (Elt F))
    (b1 : (⟨S64, .f32⟩ : BufTy).Contents (Elt F)) (w2 : (⟨S64x32, .f32⟩ : BufTy).Contents (Elt F))
    (b2 : (⟨S32, .f32⟩ : BufTy).Contents (Elt F)) (wl : (⟨S32x2, .f32⟩ : BufTy).Contents (Elt F))
    (bl : (⟨S2, .f32⟩ : BufTy).Contents (Elt F)) : (⟨S1024x2, .f32⟩ : BufTy).Contents (Elt F) :=
  final
    (pooled
      (act3 (agg32 (layer2 (agg64 (dense1 x w1) ei) (broadcastInDim S1x64 ![1] bcast_S64_S1x64_1 b1) w2) ei)
        (broadcastInDim S1x32 ![1] bcast_S32_S1x32_1 b2))
      batch)
    wl (broadcastInDim S1x2 ![1] bcast_S2_S1x2_1 bl)

end Cert.Spec

end
-- ==== Proof.KernelRun.lean ====
/-
  The idealized kernel's run with its result array named.

  The program is four kernel regions among stretches of host operations.  Its buffers' contents at each boundary are a
  fold from the launch memory: a host stretch applies its operations, a region replaces its arrays by what its
  write-backs leave and keeps every other buffer.  Every weakly fair execution terminates with every unscoped buffer at
  the last boundary's contents; read at the result buffer this names the result, and read at the arguments it gives
  them back as launched.
-/
import proofs.«144815_j14697378087275_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the nine argument arrays as launched. -/
theorem run_named : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.KernelRun

end
-- ==== Proof.Stretch.lean ====
/-
  The kernel program's host stretches are the stages of the specification.

  Between its four kernel regions the kernel program runs the same host operations as the reference: before the first
  region the edge endpoints (the edge list's two rows, each followed by the self loops) and the edge weights; before the
  second and the third region the message passing over what the previous region left, and the next bias vector laid as
  a one-row matrix; before the last region the mean over each graph's nodes and the last bias row.  Each stretch's
  result buffer holds the corresponding stage of the specification, a function of the buffers the stretch reads.
-/
import Idealize.ShloMosaic.PureOps.Ideal
import Idealize.ShloMosaic.Lib.StableHlo.Run
import proofs.«144815_j14697378087275_1_alg».proof.Proof.Gen.KernelIdeal.Launch
import proofs.«144815_j14697378087275_1_alg».proof.Proof.Gen.ReferenceIdeal
import proofs.«144815_j14697378087275_1_alg».proof.Proof.Spec

set_option maxRecDepth 16384

noncomputable section

namespace Cert.KernelIdeal.Stretch

open Idealize.ShloMosaic Idealize.ShloMosaic.TcCoe Idealize.ShloMosaic.StableHlo
open Cert.KernelIdeal Cert.KernelIdeal.Gen

variable {F : FTy → Type} [FloatOps F]

attribute [local irreducible] Host.scatterAdd Host.gather Host.rsqrt Host.divf concatenate extractStridedSlice iotaInDim

/-- Before the first region: the source node of every edge. -/
theorem src0 (W : Valuation τ sig (Elt F)) :
    after hostOps0 W (Proc.devRef .tc main_v3) = Cert.Spec.src (W (Proc.devRef .tc main_arg1)) := by
  after_results_simp
  rfl

/-- Before the first region: the target node of every edge. -/
theorem dst0 (W : Valuation τ sig (Elt F)) :
    after hostOps0 W (Proc.devRef .tc main_v6) = Cert.Spec.dst (W (Proc.devRef .tc main_arg1)) := by
  after_results_simp
  rfl

/-- Before the first region: the weight of every edge. -/
theorem norm0 (W : Valuation τ sig (Elt F)) :
    after hostOps0 W (Proc.devRef .tc main_v28) = Cert.Spec.norm (W (Proc.devRef .tc main_arg1)) := by
  after_results_simp
  rfl

/-- Before the second region: message passing over the first region's product. -/
theorem agg1 (W : Valuation τ sig (Elt F)) :
    after hostOps1 W (Proc.devRef .tc main_v42)
      = Cert.Spec.aggregate64 (W (Proc.devRef .tc main_v29)) (W (Proc.devRef .tc main_v3)) (W (Proc.devRef .tc main_v6))
          (W (Proc.devRef .tc main_v28)) := by
  after_results_simp
  rfl

/-- Before the second region: the first bias vector laid as a one-row matrix. -/
theorem row1 (W : Valuation τ sig (Elt F)) :
    after hostOps1 W (Proc.devRef .tc main_v43)
      = shapeCast S1x64 (W (Proc.devRef .tc main_arg4)) Cert.KernelIdeal.Facts₀.shapeCasts_S64_S1x64 := by
  after_results_simp
  rfl

/-- Before the third region: message passing over the second region's product. -/
theorem agg2 (W : Valuation τ sig (Elt F)) :
    after hostOps2 W (Proc.devRef .tc main_v57)
      = Cert.Spec.aggregate32 (W (Proc.devRef .tc main_v44)) (W (Proc.devRef .tc main_v3)) (W (Proc.devRef .tc main_v6))
          (W (Proc.devRef .tc main_v28)) := by
  after_results_simp
  rfl

/-- Before the third region: the second bias vector laid as a one-row matrix. -/
theorem row2 (W : Valuation τ sig (Elt F)) :
    after hostOps2 W (Proc.devRef .tc main_v58)
      = shapeCast S1x32 (W (Proc.devRef .tc main_arg6)) Cert.KernelIdeal.Facts₀.shapeCasts_S32_S1x32 := by
  after_results_simp
  rfl

/-- Before the last region: the mean of the third region's node rows over each graph. -/
theorem pool3 (W : Valuation τ sig (Elt F)) :
    after hostOps3 W (Proc.devRef .tc main_v71)
      = Cert.Spec.pooled (W (Proc.devRef .tc main_v59)) (W (Proc.devRef .tc main_arg2)) := by
  after_results_simp
  rfl

/-- Before the last region: the last bias vector laid as a one-row matrix. -/
theorem row3 (W : Valuation τ sig (Elt F)) :
    after hostOps3 W (Proc.devRef .tc main_v72)
      = shapeCast S1x2 (W (Proc.devRef .tc main_arg8)) Cert.KernelIdeal.Facts₀.shapeCasts_S2_S1x2 := by
  after_results_simp
  rfl

end Cert.KernelIdeal.Stretch

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«144815_j14697378087275_1_alg».proof.Proof.LibPlainDot
import proofs.«144815_j14697378087275_1_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.KernelValue.lean ====
/-
  The idealized kernel's result array as the specification's function of the nine argument arrays.

  The kernel program's buffer contents at each boundary are a fold from the launch memory.  Walking the fold back from
  the result buffer: the last region leaves the last dense layer of what the stretch before it computed — the mean
  over each graph of the third region's output and the bias laid as a row —, the third region the bias and activation of
  the message passing over the second region's output, the second region the first layer's bias and activation followed
  by the second product, of the message passing over the first region's product.  Buffers a stretch or a region does
  not write keep their contents, so the edge endpoints and weights computed before the first region, and the argument
  arrays, are read back to where they were written, respectively to the launch memory.  A bias vector laid as a one-row
  matrix by a reshape is the same row as the one laid by a broadcast along the last axis.
-/
import Idealize.ShloMosaic.PureOps.Ideal
import proofs.«144815_j14697378087275_1_alg».proof.Proof.Gen.KernelIdeal.Frame
import proofs.«144815_j14697378087275_1_alg».proof.Proof.Gen.ReferenceIdeal
import proofs.«144815_j14697378087275_1_alg».proof.Proof.Spec
import proofs.«144815_j14697378087275_1_alg».proof.Proof.Stretch
import proofs.«144815_j14697378087275_1_alg».proof.Proof.LibDenseBias

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- A buffer that no operation of a host stretch writes keeps its contents over the stretch. -/
local macro "not_written" : tactic => `(tactic| (
  refine StableHlo.after_of_forall_not_mem _ _ (List.forall_iff_forall_mem.mp ?_)
  simp only [hostOps0, hostOps1, hostOps2, hostOps3, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## The argument arrays, read back to the launch memory -/

theorem W1_arg0 : W1 m ρ c (Proc.devRef .tc main_arg0) = (m ((c : Thread nD τ).loc main_arg0)) := by
  show after hostOps0 (W0 m ρ c) (Proc.devRef .tc main_arg0) = W0 m ρ c (Proc.devRef .tc main_arg0)
  not_written

theorem W1_arg3 : W1 m ρ c (Proc.devRef .tc main_arg3) = (m ((c : Thread nD τ).loc main_arg3)) := by
  show after hostOps0 (W0 m ρ c) (Proc.devRef .tc main_arg3) = W0 m ρ c (Proc.devRef .tc main_arg3)
  not_written

theorem W1_arg4 : W1 m ρ c (Proc.devRef .tc main_arg4) = (m ((c : Thread nD τ).loc main_arg4)) := by
  show after hostOps0 (W0 m ρ c) (Proc.devRef .tc main_arg4) = W0 m ρ c (Proc.devRef .tc main_arg4)
  not_written
theorem W2_arg4 : W2 m ρ c (Proc.devRef .tc main_arg4) = (m ((c : Thread nD τ).loc main_arg4)) :=
  (W2_of_ne m ρ c main_arg4 (by decide)).trans (W1_arg4 m ρ c)

theorem W1_arg5 : W1 m ρ c (Proc.devRef .tc main_arg5) = (m ((c : Thread nD τ).loc main_arg5)) := by
  show after hostOps0 (W0 m ρ c) (Proc.devRef .tc main_arg5) = W0 m ρ c (Proc.devRef .tc main_arg5)
  not_written
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) := by
  refine Eq.trans ?_ (W2_arg5 m ρ c)
  show after hostOps1 (W2 m ρ c) (Proc.devRef .tc main_arg5) = W2 m ρ c (Proc.devRef .tc main_arg5)
  not_written

theorem W1_arg6 : W1 m ρ c (Proc.devRef .tc main_arg6) = (m ((c : Thread nD τ).loc main_arg6)) := by
  show after hostOps0 (W0 m ρ c) (Proc.devRef .tc main_arg6) = W0 m ρ c (Proc.devRef .tc main_arg6)
  not_written
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) := by
  refine Eq.trans ?_ (W2_arg6 m ρ c)
  show after hostOps1 (W2 m ρ c) (Proc.devRef .tc main_arg6) = W2 m ρ c (Proc.devRef .tc main_arg6)
  not_written
theorem W4_arg6 : W4 m ρ c (Proc.devRef .tc main_arg6) = (m ((c : Thread nD τ).loc main_arg6)) :=
  (W4_of_ne m ρ c main_arg6 (by decide)).trans (W3_arg6 m ρ c)

theorem W1_arg2 : W1 m ρ c (Proc.devRef .tc main_arg2) = (m ((c : Thread nD τ).loc main_arg2)) := by
  show after hostOps0 (W0 m ρ c) (Proc.devRef .tc main_arg2) = W0 m ρ c (Proc.devRef .tc main_arg2)
  not_written
theorem W2_arg2 : W2 m ρ c (Proc.devRef .tc main_arg2) = (m ((c : Thread nD τ).loc main_arg2)) :=
  (W2_of_ne m ρ c main_arg2 (by decide)).trans (W1_arg2 m ρ c)
theorem W3_arg2 : W3 m ρ c (Proc.devRef .tc main_arg2) = (m ((c : Thread nD τ).loc main_arg2)) := by
  refine Eq.trans ?_ (W2_arg2 m ρ c)
  show after hostOps1 (W2 m ρ c) (Proc.devRef .tc main_arg2) = W2 m ρ c (Proc.devRef .tc main_arg2)
  not_written
theorem W4_arg2 : W4 m ρ c (Proc.devRef .tc main_arg2) = (m ((c : Thread nD τ).loc main_arg2)) :=
  (W4_of_ne m ρ c main_arg2 (by decide)).trans (W3_arg2 m ρ c)
theorem W5_arg2 : W5 m ρ c (Proc.devRef .tc main_arg2) = (m ((c : Thread nD τ).loc main_arg2)) := by
  refine Eq.trans ?_ (W4_arg2 m ρ c)
  show after hostOps2 (W4 m ρ c) (Proc.devRef .tc main_arg2) = W4 m ρ c (Proc.devRef .tc main_arg2)
  not_written
theorem W6_arg2 : W6 m ρ c (Proc.devRef .tc main_arg2) = (m ((c : Thread nD τ).loc main_arg2)) :=
  (W6_of_ne m ρ c main_arg2 (by decide)).trans (W5_arg2 m ρ c)

theorem W1_arg8 : W1 m ρ c (Proc.devRef .tc main_arg8) = (m ((c : Thread nD τ).loc main_arg8)) := by
  show after hostOps0 (W0 m ρ c) (Proc.devRef .tc main_arg8) = W0 m ρ c (Proc.devRef .tc main_arg8)
  not_written
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) := by
  refine Eq.trans ?_ (W2_arg8 m ρ c)
  show after hostOps1 (W2 m ρ c) (Proc.devRef .tc main_arg8) = W2 m ρ c (Proc.devRef .tc main_arg8)
  not_written
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) := by
  refine Eq.trans ?_ (W4_arg8 m ρ c)
  show after hostOps2 (W4 m ρ c) (Proc.devRef .tc main_arg8) = W4 m ρ c (Proc.devRef .tc main_arg8)
  not_written
theorem W6_arg8 : W6 m ρ c (Proc.devRef .tc main_arg8) = (m ((c : Thread nD τ).loc main_arg8)) :=
  (W6_of_ne m ρ c main_arg8 (by decide)).trans (W5_arg8 m ρ c)

theorem W1_arg7 : W1 m ρ c (Proc.devRef .tc main_arg7) = (m ((c : Thread nD τ).loc main_arg7)) := by
  show after hostOps0 (W0 m ρ c) (Proc.devRef .tc main_arg7) = W0 m ρ c (Proc.devRef .tc main_arg7)
  not_written
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) := by
  refine Eq.trans ?_ (W2_arg7 m ρ c)
  show after hostOps1 (W2 m ρ c) (Proc.devRef .tc main_arg7) = W2 m ρ c (Proc.devRef .tc main_arg7)
  not_written
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) := by
  refine Eq.trans ?_ (W4_arg7 m ρ c)
  show after hostOps2 (W4 m ρ c) (Proc.devRef .tc main_arg7) = W4 m ρ c (Proc.devRef .tc main_arg7)
  not_written
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) := by
  refine Eq.trans ?_ (W6_arg7 m ρ c)
  show after hostOps3 (W6 m ρ c) (Proc.devRef .tc main_arg7) = W6 m ρ c (Proc.devRef .tc main_arg7)
  not_written

/-! ## The edge endpoints and weights, read back to the stretch that computed them -/

theorem W1_v3 : W1 m ρ c (Proc.devRef .tc main_v3) = Cert.Spec.src (m ((c : Thread nD τ).loc main_arg1)) := Stretch.src0 (W0 m ρ c)
theorem W2_v3 : W2 m ρ c (Proc.devRef .tc main_v3) = Cert.Spec.src (m ((c : Thread nD τ).loc main_arg1)) :=
  (W2_of_ne m ρ c main_v3 (by decide)).trans (W1_v3 m ρ c)
theorem W3_v3 : W3 m ρ c (Proc.devRef .tc main_v3) = Cert.Spec.src (m ((c : Thread nD τ).loc main_arg1)) := by
  refine Eq.trans ?_ (W2_v3 m ρ c)
  show after hostOps1 (W2 m ρ c) (Proc.devRef .tc main_v3) = W2 m ρ c (Proc.devRef .tc main_v3)
  not_written
theorem W4_v3 : W4 m ρ c (Proc.devRef .tc main_v3) = Cert.Spec.src (m ((c : Thread nD τ).loc main_arg1)) :=
  (W4_of_ne m ρ c main_v3 (by decide)).trans (W3_v3 m ρ c)

theorem W1_v6 : W1 m ρ c (Proc.devRef .tc main_v6) = Cert.Spec.dst (m ((c : Thread nD τ).loc main_arg1)) := Stretch.dst0 (W0 m ρ c)
theorem W2_v6 : W2 m ρ c (Proc.devRef .tc main_v6) = Cert.Spec.dst (m ((c : Thread nD τ).loc main_arg1)) :=
  (W2_of_ne m ρ c main_v6 (by decide)).trans (W1_v6 m ρ c)
theorem W3_v6 : W3 m ρ c (Proc.devRef .tc main_v6) = Cert.Spec.dst (m ((c : Thread nD τ).loc main_arg1)) := by
  refine Eq.trans ?_ (W2_v6 m ρ c)
  show after hostOps1 (W2 m ρ c) (Proc.devRef .tc main_v6) = W2 m ρ c (Proc.devRef .tc main_v6)
  not_written
theorem W4_v6 : W4 m ρ c (Proc.devRef .tc main_v6) = Cert.Spec.dst (m ((c : Thread nD τ).loc main_arg1)) :=
  (W4_of_ne m ρ c main_v6 (by decide)).trans (W3_v6 m ρ c)

theorem W1_v28 : W1 m ρ c (Proc.devRef .tc main_v28) = Cert.Spec.norm (m ((c : Thread nD τ).loc main_arg1)) := Stretch.norm0 (W0 m ρ c)
theorem W2_v28 : W2 m ρ c (Proc.devRef .tc main_v28) = Cert.Spec.norm (m ((c : Thread nD τ).loc main_arg1)) :=
  (W2_of_ne m ρ c main_v28 (by decide)).trans (W1_v28 m ρ c)
theorem W3_v28 : W3 m ρ c (Proc.devRef .tc main_v28) = Cert.Spec.norm (m ((c : Thread nD τ).loc main_arg1)) := by
  refine Eq.trans ?_ (W2_v28 m ρ c)
  show after hostOps1 (W2 m ρ c) (Proc.devRef .tc main_v28) = W2 m ρ c (Proc.devRef .tc main_v28)
  not_written
theorem W4_v28 : W4 m ρ c (Proc.devRef .tc main_v28) = Cert.Spec.norm (m ((c : Thread nD τ).loc main_arg1)) :=
  (W4_of_ne m ρ c main_v28 (by decide)).trans (W3_v28 m ρ c)

/-! ## The regions' outputs and the stretches between them -/

section Regions

variable
  (r0 : ∀ (V : (c : Dev nD) → (b : Ref sig .tc) → Buf (Elt Ideal) ((c : Thread nD τ).loc b)) (c : Dev nD),
    (dat0 (F := Ideal) V c).arrAt 2 cfg0.N = Cert.Spec.dense1 (V c main_arg0) (V c main_arg3))
  (r1 : ∀ (V : (c : Dev nD) → (b : Ref sig .tc) → Buf (Elt Ideal) ((c : Thread nD τ).loc b)) (c : Dev nD),
    (dat1 (F := Ideal) V c).arrAt 3 cfg1.N = Cert.Spec.layer2 (V c main_v42) (V c main_v43) (V c main_arg5))
  (r2 : ∀ (V : (c : Dev nD) → (b : Ref sig .tc) → Buf (Elt Ideal) ((c : Thread nD τ).loc b)) (c : Dev nD),
    (dat2 (F := Ideal) V c).arrAt 2 cfg2.N = Cert.Spec.act3 (V c main_v57) (V c main_v58))
  (r3 : ∀ (V : (c : Dev nD) → (b : Ref sig .tc) → Buf (Elt Ideal) ((c : Thread nD τ).loc b)) (c : Dev nD),
    (dat3 (F := Ideal) V c).arrAt 3 cfg3.N = Cert.Spec.final (V c main_v71) (V c main_arg7) (V c main_v72))

include r0 in
/-- The first region leaves the first layer's product. -/
theorem W2_v29 : W2 m ρ c (Proc.devRef .tc main_v29) = Cert.Spec.dense1 (m ((c : Thread nD τ).loc main_arg0)) (m ((c : Thread nD τ).loc main_arg3)) := by
  refine (W2_arr m ρ c 2).trans ((r0 (V1 m ρ) c).trans ?_)
  rw [show V1 m ρ c main_arg0 = (m ((c : Thread nD τ).loc main_arg0)) from W1_arg0 m ρ c, show V1 m ρ c main_arg3 = (m ((c : Thread nD τ).loc main_arg3)) from W1_arg3 m ρ c]

include r0 in
/-- Before the second region: message passing over the first layer's product. -/
theorem W3_v42 : W3 m ρ c (Proc.devRef .tc main_v42)
    = Cert.Spec.agg64 (Cert.Spec.dense1 (m ((c : Thread nD τ).loc main_arg0)) (m ((c : Thread nD τ).loc main_arg3))) (m ((c : Thread nD τ).loc main_arg1)) := by
  refine (Stretch.agg1 (W2 m ρ c)).trans ?_
  rw [W2_v29 m ρ c r0, W2_v3 m ρ c, W2_v6 m ρ c, W2_v28 m ρ c]
  rfl

/-- Before the second region: the first bias vector as a row, by a reshape or by a broadcast along the last axis. -/
theorem W3_v43 : W3 m ρ c (Proc.devRef .tc main_v43)
    = broadcastInDim Cert.ReferenceIdeal.S1x64 ![1] Cert.ReferenceIdeal.Facts₀.bcast_S64_S1x64_1 (m ((c : Thread nD τ).loc main_arg4)) := by
  refine (Stretch.row1 (W2 m ρ c)).trans ?_
  rw [W2_arg4 m ρ c]
  exact Cert.Lib.DenseBias.bias_row_eq (b := 64) _ _ _

include r0 r1 in
/-- The second region leaves the second layer's product of the first layer's activations. -/
theorem W4_v44 : W4 m ρ c (Proc.devRef .tc main_v44)
    = Cert.Spec.layer2 (Cert.Spec.agg64 (Cert.Spec.dense1 (m ((c : Thread nD τ).loc main_arg0)) (m ((c : Thread nD τ).loc main_arg3))) (m ((c : Thread nD τ).loc main_arg1)))
        (broadcastInDim Cert.ReferenceIdeal.S1x64 ![1] Cert.ReferenceIdeal.Facts₀.bcast_S64_S1x64_1 (m ((c : Thread nD τ).loc main_arg4))) (m ((c : Thread nD τ).loc main_arg5)) := by
  refine (W4_arr m ρ c 3).trans ((r1 (V3 m ρ) c).trans ?_)
  rw [show V3 m ρ c main_v42 = _ from W3_v42 m ρ c r0, show V3 m ρ c main_v43 = _ from W3_v43 m ρ c,
    show V3 m ρ c main_arg5 = (m ((c : Thread nD τ).loc main_arg5)) from W3_arg5 m ρ c]

include r0 r1 in
/-- Before the third region: message passing over the second layer's product. -/
theorem W5_v57 : W5 m ρ c (Proc.devRef .tc main_v57)
    = Cert.Spec.agg32 (Cert.Spec.layer2 (Cert.Spec.agg64 (Cert.Spec.dense1 (m ((c : Thread nD τ).loc main_arg0)) (m ((c : Thread nD τ).loc main_arg3))) (m ((c : Thread nD τ).loc main_arg1)))
        (broadcastInDim Cert.ReferenceIdeal.S1x64 ![1] Cert.ReferenceIdeal.Facts₀.bcast_S64_S1x64_1 (m ((c : Thread nD τ).loc main_arg4))) (m ((c : Thread nD τ).loc main_arg5))) (m ((c : Thread nD τ).loc main_arg1)) := by
  refine (Stretch.agg2 (W4 m ρ c)).trans ?_
  rw [W4_v44 m ρ c r0 r1, W4_v3 m ρ c, W4_v6 m ρ c, W4_v28 m ρ c]
  rfl

/-- Before the third region: the second bias vector as a row. -/
theorem W5_v58 : W5 m ρ c (Proc.devRef .tc main_v58)
    = broadcastInDim Cert.ReferenceIdeal.S1x32 ![1] Cert.ReferenceIdeal.Facts₀.bcast_S32_S1x32_1 (m ((c : Thread nD τ).loc main_arg6)) := by
  refine (Stretch.row2 (W4 m ρ c)).trans ?_
  rw [W4_arg6 m ρ c]
  exact Cert.Lib.DenseBias.bias_row_eq (b := 32) _ _ _

include r0 r1 r2 in
/-- The third region leaves the second layer's activations. -/
theorem W6_v59 : W6 m ρ c (Proc.devRef .tc main_v59)
    = Cert.Spec.act3 (Cert.Spec.agg32 (Cert.Spec.layer2 (Cert.Spec.agg64 (Cert.Spec.dense1 (m ((c : Thread nD τ).loc main_arg0)) (m ((c : Thread nD τ).loc main_arg3))) (m ((c : Thread nD τ).loc main_arg1)))
        (broadcastInDim Cert.ReferenceIdeal.S1x64 ![1] Cert.ReferenceIdeal.Facts₀.bcast_S64_S1x64_1 (m ((c : Thread nD τ).loc main_arg4))) (m ((c : Thread nD τ).loc main_arg5))) (m ((c : Thread nD τ).loc main_arg1)))
        (broadcastInDim Cert.ReferenceIdeal.S1x32 ![1] Cert.ReferenceIdeal.Facts₀.bcast_S32_S1x32_1 (m ((c : Thread nD τ).loc main_arg6))) := by
  refine (W6_arr m ρ c 2).trans ((r2 (V5 m ρ) c).trans ?_)
  rw [show V5 m ρ c main_v57 = _ from W5_v57 m ρ c r0 r1, show V5 m ρ c main_v58 = _ from W5_v58 m ρ c]

include r0 r1 r2 in
/-- Before the last region: the mean of the second layer's activations over each graph. -/
theorem W7_v71 : W7 m ρ c (Proc.devRef .tc main_v71)
    = Cert.Spec.pooled (Cert.Spec.act3 (Cert.Spec.agg32 (Cert.Spec.layer2 (Cert.Spec.agg64 (Cert.Spec.dense1 (m ((c : Thread nD τ).loc main_arg0)) (m ((c : Thread nD τ).loc main_arg3))) (m ((c : Thread nD τ).loc main_arg1)))
        (broadcastInDim Cert.ReferenceIdeal.S1x64 ![1] Cert.ReferenceIdeal.Facts₀.bcast_S64_S1x64_1 (m ((c : Thread nD τ).loc main_arg4))) (m ((c : Thread nD τ).loc main_arg5))) (m ((c : Thread nD τ).loc main_arg1)))
        (broadcastInDim Cert.ReferenceIdeal.S1x32 ![1] Cert.ReferenceIdeal.Facts₀.bcast_S32_S1x32_1 (m ((c : Thread nD τ).loc main_arg6)))) (m ((c : Thread nD τ).loc main_arg2)) := by
  refine (Stretch.pool3 (W6 m ρ c)).trans ?_
  rw [W6_v59 m ρ c r0 r1 r2, W6_arg2 m ρ c]

/-- Before the last region: the last bias vector as a row. -/
theorem W7_v72 : W7 m ρ c (Proc.devRef .tc main_v72)
    = broadcastInDim Cert.ReferenceIdeal.S1x2 ![1] Cert.ReferenceIdeal.Facts₀.bcast_S2_S1x2_1 (m ((c : Thread nD τ).loc main_arg8)) := by
  refine (Stretch.row3 (W6 m ρ c)).trans ?_
  rw [W6_arg8 m ρ c]
  exact Cert.Lib.DenseBias.bias_row_eq (b := 2) _ _ _

include r0 r1 r2 r3 in
/-- The result buffer at the last boundary holds the specification's function of the argument arrays. -/
theorem value : W8 m ρ c (Proc.devRef .tc main_v73)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ((r3 (V7 m ρ) c).trans ?_)
  rw [show V7 m ρ c main_v71 = _ from W7_v71 m ρ c r0 r1 r2, show V7 m ρ c main_v72 = _ from W7_v72 m ρ c,
    show V7 m ρ c main_arg7 = (m ((c : Thread nD τ).loc main_arg7)) from W7_arg7 m ρ c]
  rfl

end Regions

end Cert.KernelIdeal.KernelValue

end
-- ==== Proof.RegionShared.lean ====
/-
  Facts the four kernel regions share.

  The activation x ↦ x if 0 ≤ x, else 0.01 · x, read at one entry of a vector, as a kernel spells it on a block (the
  two constants splat from scalars) and as the host spells it on a whole array (the two constants broadcast from
  rank-0 arrays).  Both read the same scalar function `leak` of the entry; the two literals are carried as words and
  never evaluated.  Also: the offsets (0, 0) of a whole-block access, spelled as the constant function.
-/
import Idealize.ShloMosaic.PureOps.Ideal
import Idealize.ShloMosaic.Lib.ValueIdx
import Idealize.ShloMosaic.Lib.IdealHost

noncomputable section

namespace Cert.KernelIdeal.RegionValue

open Idealize.ShloMosaic Idealize.ShloMosaic.ValueIdx

/-- The offsets (0, 0) are the constant function 0. -/
theorem hz : (![0, 0] : Fin 2 → Nat) = fun _ => 0 := funext fun a => by fin_cases a <;> rfl

/-- x if 0 ≤ x, else 0.01 · x, on one extended real; the constants as the words of the two f32 literals. -/
def leak (x : EReal) : EReal :=
  Scalar.select (FloatOps.cmpf (F := Ideal) .oge x (Ideal.ofBits .f32 0x00000000#32)) x (Ideal.ofBits .f32 0x3C23D70A#32 * x)

/-- A kernel's activation of a vector, the constants splat from scalars, at an entry. -/
theorem leak_splat_entry {s : Shape} (y : FVec Ideal s .f32) (i : s.Idx) :
    select (cmpf .oge y (broadcast s (Scalar.ofBits (F := Ideal) .f32 0x00000000#32))) y
        (mulf (broadcast s (Scalar.ofBits (F := Ideal) .f32 0x3C23D70A#32)) y) i = leak (y i) := rfl

/-- The host's activation of an array, the constants broadcast from rank-0 arrays, at an entry. -/
theorem leak_host_entry {T : Shape} (h : (⟨0, ![]⟩ : Shape).BroadcastsInDim T ![]) (a : FVec Ideal T .f32) (i : T.Idx) :
    select (cmpf .oge a (broadcastInDim T ![] h (constant (F := Ideal) ⟨0, ![]⟩ .f32 0x00000000#32))) a
        (mulf (broadcastInDim T ![] h (id (constant (F := Ideal) ⟨0, ![]⟩ .f32 0x3C23D70A#32))) a) i = leak (a i) := by
  rw [select_apply, cmpf_apply, mulf_apply, broadcastInDim_scalar_apply, broadcastInDim_scalar_apply]
  rfl

end Cert.KernelIdeal.RegionValue

end
-- ==== Proof.Region0.lean ====
/-
  What the first kernel region leaves in its output array: the product of the node features [100000, 6] by the first
  weight matrix [6, 64], whole.

  The region visits ten points; point t multiplies rows 10000·t … 10000·t + 9999 of the features by the whole weight
  matrix and writes the result to the same rows of the output.  Entry (p, q) of a block's product is
  ∑ k, x (p, k) · w (k, q), which reads row p of the block only — that is row 10000·t + p of the array — so the block
  written at point t is rows 10000·t … of the product of the whole arrays.  Row r of the output lies in the block of
  point r / 10000, so the ten blocks cover the array and it ends holding the whole product.
-/
import Idealize.ShloMosaic.PureOps.Ideal
import Idealize.ShloMosaic.Lib.ValueIdx
import Idealize.ShloMosaic.Lib.Pipeline.Value
import Idealize.ShloMosaic.Lib.IdealHost
import proofs.«144815_j14697378087275_1_alg».proof.Proof.Gen.KernelIdeal.Frame
import proofs.«144815_j14697378087275_1_alg».proof.Proof.Gen.ReferenceIdeal
import proofs.«144815_j14697378087275_1_alg».proof.Proof.Spec
import proofs.«144815_j14697378087275_1_alg».proof.Proof.LibDenseBias
import proofs.«144815_j14697378087275_1_alg».proof.Proof.RegionShared

noncomputable section
namespace Cert.KernelIdeal.RegionValue
open Idealize.ShloMosaic Idealize.ShloMosaic.TcCoe Idealize.SL.Sem Cert.KernelIdeal Cert.KernelIdeal.Gen
open Idealize.ShloMosaic.ValueIdx Cert.Lib.DenseBias
open Idealize.ShloMosaic.Pipeline (Dat)
variable (V : (c : Dev nD) → (b : Ref sig .tc) → Buf (Elt Ideal) ((c : Thread nD τ).loc b))

/-- The block's product at an entry. -/
theorem pay0_entry (x0 : Vec Ideal S10000x6 .f32) (x1 : Vec Ideal S6x64 .f32) (p : Fin 10000) (q : Fin 64) :
    Gen.k0_pay1 (F := Ideal) x0 x1 (ix2 p q) = ∑ k : Fin 6, x0 (ix2 p k) * x1 (ix2 k q) := by
  unfold Gen.k0_pay1
  exact dense_block_entry (M := 10000) (K := 6) (N := 64) bitsLt_bf16_f32 x0 x1 p q

/-- The whole product at an entry. -/
theorem dense1_entry (x : (⟨Cert.ReferenceIdeal.S100000x6, .f32⟩ : BufTy).Contents (Elt Ideal)) (w : (⟨Cert.ReferenceIdeal.S6x64, .f32⟩ : BufTy).Contents (Elt Ideal)) (p : Fin 100000) (q : Fin 64) :
    Cert.Spec.dense1 (F := Ideal) x w (ix2 p q) = ∑ k : Fin 6, x (ix2 p k) * w (ix2 k q) := by
  unfold Cert.Spec.dense1
  exact dense_host_entry (M := 100000) (K := 6) (N := 64) x w p q

/-- The block index of each window at each of the ten points: the row-blocked windows sit at block (t, 0), the weight
    window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of a block of rows of the product against the entry of the whole product in the same row of the array. -/
theorem block0_entry (A : (⟨Cert.ReferenceIdeal.S100000x6, .f32⟩ : BufTy).Contents (Elt Ideal)) (W : (⟨Cert.ReferenceIdeal.S6x64, .f32⟩ : BufTy).Contents (Elt Ideal))
    (x0 : Vec Ideal S10000x6 .f32) (x1 : Vec Ideal S6x64 .f32) (p : Fin 10000) (q : Fin 64) (r : Fin 100000)
    (h0 : ∀ k : Fin 6, x0 (ix2 p k) = A (ix2 r k)) (h1 : ∀ (k : Fin 6) (q : Fin 64), x1 (ix2 k q) = W (ix2 k q)) :
    Gen.k0_pay1 (F := Ideal) x0 x1 (ix2 p q) = Cert.Spec.dense1 (F := Ideal) A W (ix2 r q) := by
  rw [pay0_entry, dense1_entry]
  exact Finset.sum_congr rfl fun k _ => by rw [h0, h1]

/-- What point t writes back is rows 10000·t … 10000·t + 9999 of the product of the whole arrays. -/
theorem flushed0 (c : Dev nD) (t : Fin cfg0.N) :
    (Gen.dat0 (F := Ideal) V c).flushed 2 t = ((cfg0.win 2).blk t).view.read (Elt Ideal) (Cert.Spec.dense1 (V c main_arg0) (V c main_arg3)) := by
  show (cfg0.win 2).cut (grid0.coords t) ((Gen.dat0 (F := Ideal) V c).after 2 t) = _
  rw [Gen.after0_2]
  unfold Gen.out0_2
  rw [View.canon_unit_zero hz]
  simp only [View.ld_unit_zero (S := S10000x6) hz, View.ld_unit_zero (S := S6x64) hz]
  obtain ⟨e00, e01, e10, e11, e20, e21⟩ := idx_facts0 t
  have ht : t.val < 10 := lt_of_lt_of_eq t.isLt Gen.N_0
  funext j
  revert j
  show ∀ y : S10000x64.Idx, Gen.k0_pay1 (F := Ideal) (iblk0 V c 0 t) (iblk0 V c 1 t) y = Cert.Spec.dense1 (F := Ideal) (V c main_arg0) (V c main_arg3) (((cfg0.win 2).blk t).view.emb y)
  intro y
  obtain ⟨p, q, rfl⟩ : ∃ (p : Fin 10000) (q : Fin 64), y = ix2 p q := ⟨y 0, y 1, eq_ix2 y⟩
  have hr : t.val * 10000 + p.val < 100000 := by have := p.isLt; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; rw [e20]; omega
    | ⟨1, _⟩ => show win0_2.index t (1 : Fin 2) * 64 + 1 * q.val = q.val; rw [e21]; omega
  rw [hemb]
  refine block0_entry _ _ _ _ p q _ (fun k => ?_) (fun k q => ?_)
  · show V c main_arg0 (((cfg0.win 0).blk t).view.emb (ix2 p k)) = _
    refine congrArg _ ?_
    funext a; apply Fin.ext
    match a with
    | ⟨0, _⟩ => show win0_0.index t (0 : Fin 2) * 10000 + 1 * p.val = t.val * 10000 + p.val; rw [e00]; omega
    | ⟨1, _⟩ => show win0_0.index t (1 : Fin 2) * 6 + 1 * k.val = k.val; rw [e01]; omega
  · show V c main_arg3 (((cfg0.win 1).blk t).view.emb (ix2 k q)) = _
    refine congrArg _ ?_
    funext a; apply Fin.ext
    match a with
    | ⟨0, _⟩ => show win0_1.index t (0 : Fin 2) * 6 + 1 * k.val = k.val; rw [e10]; omega
    | ⟨1, _⟩ => show win0_1.index t (1 : Fin 2) * 64 + 1 * q.val = q.val; rw [e11]; omega

/-- Row r of the array lies in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := Gen.N_0
  have hlt : (i 0).val / 10000 < cfg0.N := by rw [hN]; omega
  refine ⟨⟨(i 0).val / 10000, hlt⟩, Gen.flush0_2 _, ?_⟩
  obtain ⟨-, -, -, -, e20, e21⟩ := idx_facts0 ⟨(i 0).val / 10000, hlt⟩
  show i ∈ ((View.whole main_v29).slice (win0_2.rect ⟨(i 0).val / 10000, hlt⟩)).set
  rw [View.set_slice_whole, Rect.mem_set_unit]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e21]; omega

/-- Region 0 leaves in its output array the first layer's product of the arrays it finds. -/
theorem region0 (c : Dev nD) : (Gen.dat0 (F := Ideal) V c).arrAt 2 cfg0.N = Cert.Spec.dense1 (V c main_arg0) (V c main_arg3) :=
  (Gen.dat0 (F := Ideal) V c).arrAt_eq_of_cover 2 _ (fun t _ => flushed0 V c t) cover0

end Cert.KernelIdeal.RegionValue
end
-- ==== Proof.Region1.lean ====
/-
  What the second kernel region leaves in its output array: the first layer's bias and activation applied to the
  aggregated features [100000, 64], then the product by the second weight matrix [64, 32], whole.

  The region visits ten points; point t takes rows 10000·t … 10000·t + 9999 of the aggregated features, adds the bias
  row [1, 64] repeated down the rows, applies x ↦ x if 0 ≤ x, else 0.01 · x entrywise, multiplies by the whole weight
  matrix and writes the result to the same rows of the output.  Entry (p, q) of a block's result is
  ∑ k, leak (a (p, k) + row (0, k)) · w (k, q), which reads row p of the block only — row 10000·t + p of the array — so
  the block written at point t is rows 10000·t … of the same expression on the whole arrays.  Row r of the output lies
  in the block of point r / 10000, so the ten blocks cover the array.
-/
import Idealize.ShloMosaic.PureOps.Ideal
import Idealize.ShloMosaic.Lib.ValueIdx
import Idealize.ShloMosaic.Lib.Pipeline.Value
import Idealize.ShloMosaic.Lib.IdealHost
import proofs.«144815_j14697378087275_1_alg».proof.Proof.Gen.KernelIdeal.Frame
import proofs.«144815_j14697378087275_1_alg».proof.Proof.Gen.ReferenceIdeal
import proofs.«144815_j14697378087275_1_alg».proof.Proof.Spec
import proofs.«144815_j14697378087275_1_alg».proof.Proof.LibDenseBias
import proofs.«144815_j14697378087275_1_alg».proof.Proof.RegionShared

noncomputable section
namespace Cert.KernelIdeal.RegionValue
open Idealize.ShloMosaic Idealize.ShloMosaic.TcCoe Idealize.SL.Sem Cert.KernelIdeal Cert.KernelIdeal.Gen
open Idealize.ShloMosaic.ValueIdx Cert.Lib.DenseBias
open Idealize.ShloMosaic.Pipeline (Dat)
variable (V : (c : Dev nD) → (b : Ref sig .tc) → Buf (Elt Ideal) ((c : Thread nD τ).loc b))

/-- Bias, activation and product on a block of rows, at an entry. -/
theorem pay1_entry (x0 : Vec Ideal S10000x64 .f32) (x1 : Vec Ideal S1x64 .f32) (x2 : Vec Ideal S64x32 .f32) (p : Fin 10000) (q : Fin 32) :
    Gen.k1_pay1 (F := Ideal) x0 x1 x2 (ix2 p q)
      = ∑ k : Fin 64, leak (x0 (ix2 p k) + x1 (ix2 (0 : Fin 1) k)) * x2 (ix2 k q) := by
  unfold Gen.k1_pay1
  refine (dense_block_entry (M := 10000) (K := 64) (N := 32) bitsLt_bf16_f32 _ x2 p q).trans ?_
  refine Finset.sum_congr rfl fun k _ => congrArg (· * _) ?_
  refine (leak_splat_entry _ (ix2 p k)).trans (congrArg leak ?_)
  exact bias_block_entry x0 x1 _ _ _ p k

/-- Bias, activation and product on the whole arrays, at an entry. -/
theorem layer2_entry (A : (⟨Cert.ReferenceIdeal.S100000x64, .f32⟩ : BufTy).Contents (Elt Ideal)) (R : (⟨Cert.ReferenceIdeal.S1x64, .f32⟩ : BufTy).Contents (Elt Ideal))
    (W : (⟨Cert.ReferenceIdeal.S64x32, .f32⟩ : BufTy).Contents (Elt Ideal)) (p : Fin 100000) (q : Fin 32) :
    Cert.Spec.layer2 (F := Ideal) A R W (ix2 p q)
      = ∑ k : Fin 64, leak (A (ix2 p k) + R (ix2 (0 : Fin 1) k)) * W (ix2 k q) := by
  unfold Cert.Spec.layer2
  refine (dense_host_entry (M := 100000) (K := 64) (N := 32) _ W p q).trans ?_
  refine Finset.sum_congr rfl fun k _ => congrArg (· * _) ?_
  unfold Cert.Spec.leaky64
  refine (leak_host_entry _ _ (ix2 p k)).trans (congrArg leak ?_)
  exact bias_host_entry A R _ p k

/-- The block index of each window at each of the ten points: the row-blocked windows sit at block (t, 0), the bias
    row and the weight matrix at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of a block's result against the entry of the whole arrays' result in the same row of the array. -/
theorem block1_entry (A : (⟨Cert.ReferenceIdeal.S100000x64, .f32⟩ : BufTy).Contents (Elt Ideal)) (R : (⟨Cert.ReferenceIdeal.S1x64, .f32⟩ : BufTy).Contents (Elt Ideal))
    (W : (⟨Cert.ReferenceIdeal.S64x32, .f32⟩ : BufTy).Contents (Elt Ideal))
    (x0 : Vec Ideal S10000x64 .f32) (x1 : Vec Ideal S1x64 .f32) (x2 : Vec Ideal S64x32 .f32) (p : Fin 10000) (q : Fin 32) (r : Fin 100000)
    (h0 : ∀ k : Fin 64, x0 (ix2 p k) = A (ix2 r k)) (h1 : ∀ k : Fin 64, x1 (ix2 (0 : Fin 1) k) = R (ix2 (0 : Fin 1) k))
    (h2 : ∀ (k : Fin 64) (q : Fin 32), x2 (ix2 k q) = W (ix2 k q)) :
    Gen.k1_pay1 (F := Ideal) x0 x1 x2 (ix2 p q) = Cert.Spec.layer2 (F := Ideal) A R W (ix2 r q) := by
  rw [pay1_entry, layer2_entry]
  exact Finset.sum_congr rfl fun k _ => by rw [h0, h1, h2]

/-- What point t writes back is rows 10000·t … 10000·t + 9999 of the whole arrays' result. -/
theorem flushed1 (c : Dev nD) (t : Fin cfg1.N) :
    (Gen.dat1 (F := Ideal) V c).flushed 3 t = ((cfg1.win 3).blk t).view.read (Elt Ideal) (Cert.Spec.layer2 (V c main_v42) (V c main_v43) (V c main_arg5)) := by
  show (cfg1.win 3).cut (grid1.coords t) ((Gen.dat1 (F := Ideal) V c).after 3 t) = _
  rw [Gen.after1_3]
  unfold Gen.out1_3
  rw [View.canon_unit_zero hz]
  simp only [View.ld_unit_zero (S := S10000x64) hz, View.ld_unit_zero (S := S1x64) hz, View.ld_unit_zero (S := S64x32) hz]
  obtain ⟨e00, e01, e10, e11, e20, e21, e30, e31⟩ := idx_facts1 t
  have ht : t.val < 10 := lt_of_lt_of_eq t.isLt Gen.N_1
  funext j
  revert j
  show ∀ y : S10000x32.Idx, Gen.k1_pay1 (F := Ideal) (iblk1 V c 0 t) (iblk1 V c 1 t) (iblk1 V c 2 t) y
    = Cert.Spec.layer2 (F := Ideal) (V c main_v42) (V c main_v43) (V c main_arg5) (((cfg1.win 3).blk t).view.emb y)
  intro y
  obtain ⟨p, q, rfl⟩ : ∃ (p : Fin 10000) (q : Fin 32), y = ix2 p q := ⟨y 0, y 1, eq_ix2 y⟩
  have hr : t.val * 10000 + p.val < 100000 := by have := p.isLt; omega
  have hemb : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; rw [e30]; omega
    | ⟨1, _⟩ => show win1_3.index t (1 : Fin 2) * 32 + 1 * q.val = q.val; rw [e31]; omega
  rw [hemb]
  refine block1_entry _ _ _ _ _ _ p q _ (fun k => ?_) (fun k => ?_) (fun k q => ?_)
  · show V c main_v42 (((cfg1.win 0).blk t).view.emb (ix2 p k)) = _
    refine congrArg _ ?_
    funext a; apply Fin.ext
    match a with
    | ⟨0, _⟩ => show win1_0.index t (0 : Fin 2) * 10000 + 1 * p.val = t.val * 10000 + p.val; rw [e00]; omega
    | ⟨1, _⟩ => show win1_0.index t (1 : Fin 2) * 64 + 1 * k.val = k.val; rw [e01]; omega
  · show V c main_v43 (((cfg1.win 1).blk t).view.emb (ix2 (0 : Fin 1) k)) = _
    refine congrArg _ ?_
    funext a; apply Fin.ext
    match a with
    | ⟨0, _⟩ => show win1_1.index t (0 : Fin 2) * 1 + 1 * 0 = 0; rw [e10]
    | ⟨1, _⟩ => show win1_1.index t (1 : Fin 2) * 64 + 1 * k.val = k.val; rw [e11]; omega
  · show V c main_arg5 (((cfg1.win 2).blk t).view.emb (ix2 k q)) = _
    refine congrArg _ ?_
    funext a; apply Fin.ext
    match a with
    | ⟨0, _⟩ => show win1_2.index t (0 : Fin 2) * 64 + 1 * k.val = k.val; rw [e20]; omega
    | ⟨1, _⟩ => show win1_2.index t (1 : Fin 2) * 32 + 1 * q.val = q.val; rw [e21]; omega

/-- Row r of the array lies in the block of point r / 10000. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := Gen.N_1
  have hlt : (i 0).val / 10000 < cfg1.N := by rw [hN]; omega
  refine ⟨⟨(i 0).val / 10000, hlt⟩, Gen.flush1_3 _, ?_⟩
  obtain ⟨-, -, -, -, -, -, e30, e31⟩ := idx_facts1 ⟨(i 0).val / 10000, hlt⟩
  show i ∈ ((View.whole main_v44).slice (win1_3.rect ⟨(i 0).val / 10000, hlt⟩)).set
  rw [View.set_slice_whole, Rect.mem_set_unit]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, hlt⟩ (1 : Fin 2) * 32 ≤ (i 1).val ∧ (i 1).val < win1_3.index ⟨(i 0).val / 10000, hlt⟩ (1 : Fin 2) * 32 + 32
    rw [e31]; omega

/-- Region 1 leaves in its output array the first layer's bias and activation and the second layer's product of the
    arrays it finds. -/
theorem region1 (c : Dev nD) : (Gen.dat1 (F := Ideal) V c).arrAt 3 cfg1.N = Cert.Spec.layer2 (V c main_v42) (V c main_v43) (V c main_arg5) :=
  (Gen.dat1 (F := Ideal) V c).arrAt_eq_of_cover 3 _ (fun t _ => flushed1 V c t) cover1

end Cert.KernelIdeal.RegionValue
end
-- ==== Proof.LibLeakyEntry.lean ====
/-
  The leaky rectifier x ↦ x if 0 ≤ x, else 0.01 · x, read at one entry of a vector on the extended reals; any shape.

  A kernel spells it on a block with the zero and the slope splat from scalars: the comparison 0 ≤ x, the product
  slope · x, and the selection between x and the product.  The host spells it on a whole array with the zero and the
  slope broadcast from rank-0 arrays, the slope first carried through a conversion to its own type.  Read at an entry
  both are the same scalar function `leak` of that entry.  The two f32 literals (the zero word and 0x3C23D70A, the f32
  nearest 0.01) are carried as words and never evaluated, so the same words on both sides meet as they stand.
-/
import Idealize.ShloMosaic.PureOps.Ideal
import Idealize.ShloMosaic.Lib.ValueIdx
import Idealize.ShloMosaic.Lib.IdealHost

noncomputable section

namespace Cert.Lib.LeakyEntry

open Idealize.ShloMosaic Idealize.ShloMosaic.ValueIdx

/-- x if 0 ≤ x, else 0.01 · x, on one extended real; the constants as the words of the two f32 literals. -/
def leak (x : EReal) : EReal :=
  Scalar.select (FloatOps.cmpf (F := Ideal) .oge x (Ideal.ofBits .f32 0x00000000#32)) x (Ideal.ofBits .f32 0x3C23D70A#32 * x)

/-- A kernel's leaky rectifier of a vector, the constants splat from scalars, at an entry. -/
theorem leak_splat_entry {s : Shape} (y : FVec Ideal s .f32) (i : s.Idx) :
    select (cmpf .oge y (broadcast s (Scalar.ofBits (F := Ideal) .f32 0x00000000#32))) y
        (mulf (broadcast s (Scalar.ofBits (F := Ideal) .f32 0x3C23D70A#32)) y) i = leak (y i) := rfl

/-- The host's leaky rectifier of an array, the constants broadcast from rank-0 arrays, at an entry. -/
theorem leak_host_entry {T : Shape} (h : (⟨0, ![]⟩ : Shape).BroadcastsInDim T ![]) (a : FVec Ideal T .f32) (i : T.Idx) :
    select (cmpf .oge a (broadcastInDim T ![] h (constant (F := Ideal) ⟨0, ![]⟩ .f32 0x00000000#32))) a
        (mulf (broadcastInDim T ![] h (id (constant (F := Ideal) ⟨0, ![]⟩ .f32 0x3C23D70A#32))) a) i = leak (a i) := by
  rw [select_apply, cmpf_apply, mulf_apply, broadcastInDim_scalar_apply, broadcastInDim_scalar_apply]
  rfl

end Cert.Lib.LeakyEntry

end
-- ==== Proof.Region2.lean ====
/-
  What the third kernel region leaves in its output array: the second layer's bias and activation, whole.

  The region visits ten points; point t takes rows 10000·t … 10000·t + 9999 of the message-passing result [100000, 32],
  adds the bias row [1, 32] repeated down the block's rows, applies x ↦ x if 0 ≤ x, else 0.01 · x entry by entry, and
  writes the block to the same rows of the output.  Entry (p, q) of a block reads entry (p, q) of the input block — that
  is row 10000·t + p of the array — and the bias entry of column q only, so the block written at point t is rows
  10000·t … of the bias and activation of the whole array.  Row r of the output lies in the block of point r / 10000,
  so the ten blocks cover the array.
-/
import Idealize.ShloMosaic.PureOps.Ideal
import Idealize.ShloMosaic.Lib.ValueIdx
import Idealize.ShloMosaic.Lib.Pipeline.Value
import Idealize.ShloMosaic.Lib.IdealHost
import proofs.«144815_j14697378087275_1_alg».proof.Proof.Gen.KernelIdeal.Frame
import proofs.«144815_j14697378087275_1_alg».proof.Proof.Gen.ReferenceIdeal
import proofs.«144815_j14697378087275_1_alg».proof.Proof.Spec
import proofs.«144815_j14697378087275_1_alg».proof.Proof.LibDenseBias
import proofs.«144815_j14697378087275_1_alg».proof.Proof.LibLeakyEntry

noncomputable section
namespace Cert.KernelIdeal.RegionValue
open Idealize.ShloMosaic Idealize.ShloMosaic.TcCoe Idealize.SL.Sem Cert.KernelIdeal Cert.KernelIdeal.Gen
open Idealize.ShloMosaic.ValueIdx Cert.Lib.DenseBias Cert.Lib.LeakyEntry
open Idealize.ShloMosaic.Pipeline (Dat)
variable (V : (c : Dev nD) → (b : Ref sig .tc) → Buf (Elt Ideal) ((c : Thread nD τ).loc b))

/-- The offsets (0, 0) of a whole-block access are the constant function 0. -/
theorem hz2 : (![0, 0] : Fin 2 → Nat) = fun _ => 0 := funext fun a => by fin_cases a <;> rfl

/-- The block's bias and activation at an entry. -/
theorem pay2_entry (x0 : Vec Ideal S10000x32 .f32) (x1 : Vec Ideal S1x32 .f32) (p : Fin 10000) (q : Fin 32) :
    Gen.k2_pay1 (F := Ideal) x0 x1 (ix2 p q) = leak (x0 (ix2 p q) + x1 (ix2 (0 : Fin 1) q)) := by
  unfold Gen.k2_pay1
  exact (leak_splat_entry _ _).trans (congrArg leak (bias_block_entry (a := 10000) (b := 32) x0 x1 _ _ _ p q))

/-- The whole array's bias and activation at an entry. -/
theorem act3_entry (A : (⟨Cert.ReferenceIdeal.S100000x32, .f32⟩ : BufTy).Contents (Elt Ideal))
    (R : (⟨Cert.ReferenceIdeal.S1x32, .f32⟩ : BufTy).Contents (Elt Ideal)) (r : Fin 100000) (q : Fin 32) :
    Cert.Spec.act3 (F := Ideal) A R (ix2 r q) = leak (A (ix2 r q) + R (ix2 (0 : Fin 1) q)) := by
  unfold Cert.Spec.act3 Cert.Spec.leaky32
  exact (leak_host_entry _ _ _).trans (congrArg leak (bias_host_entry (a := 100000) (b := 32) A R _ r q))

/-- The block index of each window at each of the ten points: the row-blocked windows sit at block (t, 0), the bias
    window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of a block's bias and activation against the entry of the whole array's in the same row of the array. -/
theorem block2_entry (A : (⟨Cert.ReferenceIdeal.S100000x32, .f32⟩ : BufTy).Contents (Elt Ideal))
    (R : (⟨Cert.ReferenceIdeal.S1x32, .f32⟩ : BufTy).Contents (Elt Ideal))
    (x0 : Vec Ideal S10000x32 .f32) (x1 : Vec Ideal S1x32 .f32) (p : Fin 10000) (q : Fin 32) (r : Fin 100000)
    (h0 : x0 (ix2 p q) = A (ix2 r q)) (h1 : x1 (ix2 (0 : Fin 1) q) = R (ix2 (0 : Fin 1) q)) :
    Gen.k2_pay1 (F := Ideal) x0 x1 (ix2 p q) = Cert.Spec.act3 (F := Ideal) A R (ix2 r q) := by
  rw [pay2_entry, act3_entry, h0, h1]

/-- What point t writes back is rows 10000·t … 10000·t + 9999 of the bias and activation of the whole array. -/
theorem flushed2 (c : Dev nD) (t : Fin cfg2.N) :
    (Gen.dat2 (F := Ideal) V c).flushed 2 t = ((cfg2.win 2).blk t).view.read (Elt Ideal) (Cert.Spec.act3 (V c main_v57) (V c main_v58)) := by
  show (cfg2.win 2).cut (grid2.coords t) ((Gen.dat2 (F := Ideal) V c).after 2 t) = _
  rw [Gen.after2_2]
  unfold Gen.out2_2
  rw [View.canon_unit_zero hz2]
  simp only [View.ld_unit_zero (S := S10000x32) hz2, View.ld_unit_zero (S := S1x32) hz2]
  obtain ⟨e00, e01, e10, e11, e20, e21⟩ := idx_facts2 t
  have ht : t.val < 10 := lt_of_lt_of_eq t.isLt Gen.N_2
  funext j
  revert j
  show ∀ y : S10000x32.Idx, Gen.k2_pay1 (F := Ideal) (iblk2 V c 0 t) (iblk2 V c 1 t) y = Cert.Spec.act3 (F := Ideal) (V c main_v57) (V c main_v58) (((cfg2.win 2).blk t).view.emb y)
  intro y
  obtain ⟨p, q, rfl⟩ : ∃ (p : Fin 10000) (q : Fin 32), y = ix2 p q := ⟨y 0, y 1, eq_ix2 y⟩
  have hr : t.val * 10000 + p.val < 100000 := by have := p.isLt; omega
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; rw [e20]; omega
    | ⟨1, _⟩ => show win2_2.index t (1 : Fin 2) * 32 + 1 * q.val = q.val; rw [e21]; omega
  rw [hemb]
  refine block2_entry _ _ _ _ p q _ ?_ ?_
  · show V c main_v57 (((cfg2.win 0).blk t).view.emb (ix2 p q)) = _
    refine congrArg _ ?_
    funext a; apply Fin.ext
    match a with
    | ⟨0, _⟩ => show win2_0.index t (0 : Fin 2) * 10000 + 1 * p.val = t.val * 10000 + p.val; rw [e00]; omega
    | ⟨1, _⟩ => show win2_0.index t (1 : Fin 2) * 32 + 1 * q.val = q.val; rw [e01]; omega
  · show V c main_v58 (((cfg2.win 1).blk t).view.emb (ix2 (0 : Fin 1) q)) = _
    refine congrArg _ ?_
    funext a; apply Fin.ext
    match a with
    | ⟨0, _⟩ => show win2_1.index t (0 : Fin 2) * 1 + 1 * (0 : Fin 1).val = (0 : Fin 1).val; rw [e10]; rfl
    | ⟨1, _⟩ => show win2_1.index t (1 : Fin 2) * 32 + 1 * q.val = q.val; rw [e11]; omega

/-- Row r of the array lies in the block of point r / 10000. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := Gen.N_2
  have hlt : (i 0).val / 10000 < cfg2.N := by rw [hN]; omega
  refine ⟨⟨(i 0).val / 10000, hlt⟩, Gen.flush2_2 _, ?_⟩
  obtain ⟨-, -, -, -, e20, e21⟩ := idx_facts2 ⟨(i 0).val / 10000, hlt⟩
  show i ∈ ((View.whole main_v59).slice (win2_2.rect ⟨(i 0).val / 10000, hlt⟩)).set
  rw [View.set_slice_whole, Rect.mem_set_unit]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, hlt⟩ (1 : Fin 2) * 32 ≤ (i 1).val ∧ (i 1).val < win2_2.index ⟨(i 0).val / 10000, hlt⟩ (1 : Fin 2) * 32 + 32
    rw [e21]; omega

/-- Region 2 leaves in its output array the second layer's bias and activation of the arrays it finds. -/
theorem region2 (c : Dev nD) : (Gen.dat2 (F := Ideal) V c).arrAt 2 cfg2.N = Cert.Spec.act3 (V c main_v57) (V c main_v58) :=
  (Gen.dat2 (F := Ideal) V c).arrAt_eq_of_cover 2 _ (fun t _ => flushed2 V c t) cover2

end Cert.KernelIdeal.RegionValue
end
-- ==== Proof.Region3.lean ====
/-
  What the last kernel region leaves in its output array: the graph means [1024, 32] times the last weight matrix
  [32, 2], plus the bias row [1, 2] repeated down the rows, whole.

  The region has one point and every window is its whole array, so each block is the array itself and the one block
  written back covers the output.  Entry (p, q) is (∑ k, m (p, k) · w (k, q)) + row (0, q) on both sides.
-/
import Idealize.ShloMosaic.PureOps.Ideal
import Idealize.ShloMosaic.Lib.ValueIdx
import Idealize.ShloMosaic.Lib.Pipeline.Value
import Idealize.ShloMosaic.Lib.IdealHost
import proofs.«144815_j14697378087275_1_alg».proof.Proof.Gen.KernelIdeal.Frame
import proofs.«144815_j14697378087275_1_alg».proof.Proof.Gen.ReferenceIdeal
import proofs.«144815_j14697378087275_1_alg».proof.Proof.Spec
import proofs.«144815_j14697378087275_1_alg».proof.Proof.LibDenseBias
import proofs.«144815_j14697378087275_1_alg».proof.Proof.RegionShared

noncomputable section
namespace Cert.KernelIdeal.RegionValue
open Idealize.ShloMosaic Idealize.ShloMosaic.TcCoe Idealize.SL.Sem Cert.KernelIdeal Cert.KernelIdeal.Gen
open Idealize.ShloMosaic.ValueIdx Cert.Lib.DenseBias
open Idealize.ShloMosaic.Pipeline (Dat)
variable (V : (c : Dev nD) → (b : Ref sig .tc) → Buf (Elt Ideal) ((c : Thread nD τ).loc b))

/-- The last dense layer on the block at an entry. -/
theorem pay3_entry (x0 : Vec Ideal S1024x32 .f32) (x1 : Vec Ideal S32x2 .f32) (x2 : Vec Ideal S1x2 .f32) (p : Fin 1024) (q : Fin 2) :
    Gen.k3_pay1 (F := Ideal) x0 x1 x2 (ix2 p q) = (∑ k : Fin 32, x0 (ix2 p k) * x1 (ix2 k q)) + x2 (ix2 (0 : Fin 1) q) := by
  unfold Gen.k3_pay1
  refine (addf_apply _ _ _).trans ?_
  refine congrArg₂ (· + ·) ?_ ?_
  · refine (dense_block_entry (M := 1024) (K := 32) (N := 2) bitsLt_bf16_f32 _ x1 p q).trans ?_
    exact Finset.sum_congr rfl fun k _ => by rw [shapeCast_self]
  · refine (row_down_entry _ _ p q).trans ?_
    rw [shapeCast_self]

/-- The last dense layer on the whole arrays at an entry. -/
theorem final_entry (P : (⟨Cert.ReferenceIdeal.S1024x32, .f32⟩ : BufTy).Contents (Elt Ideal)) (W : (⟨Cert.ReferenceIdeal.S32x2, .f32⟩ : BufTy).Contents (Elt Ideal))
    (R : (⟨Cert.ReferenceIdeal.S1x2, .f32⟩ : BufTy).Contents (Elt Ideal)) (p : Fin 1024) (q : Fin 2) :
    Cert.Spec.final (F := Ideal) P W R (ix2 p q) = (∑ k : Fin 32, P (ix2 p k) * W (ix2 k q)) + R (ix2 (0 : Fin 1) q) := by
  unfold Cert.Spec.final
  refine (addf_apply _ _ _).trans ?_
  exact congrArg₂ (· + ·) (dense_host_entry (M := 1024) (K := 32) (N := 2) P W p q) (row_down_host_entry _ _ p q)

/-- Every window of the region sits at block (0, 0) at its one point. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- An entry of the block's result against the same entry of the whole arrays' result, the blocks being the arrays. -/
theorem block3_entry (P : (⟨Cert.ReferenceIdeal.S1024x32, .f32⟩ : BufTy).Contents (Elt Ideal)) (W : (⟨Cert.ReferenceIdeal.S32x2, .f32⟩ : BufTy).Contents (Elt Ideal))
    (R : (⟨Cert.ReferenceIdeal.S1x2, .f32⟩ : BufTy).Contents (Elt Ideal))
    (x0 : Vec Ideal S1024x32 .f32) (x1 : Vec Ideal S32x2 .f32) (x2 : Vec Ideal S1x2 .f32) (p : Fin 1024) (q : Fin 2)
    (h0 : ∀ k : Fin 32, x0 (ix2 p k) = P (ix2 p k)) (h1 : ∀ (k : Fin 32) (q : Fin 2), x1 (ix2 k q) = W (ix2 k q))
    (h2 : ∀ q : Fin 2, x2 (ix2 (0 : Fin 1) q) = R (ix2 (0 : Fin 1) q)) :
    Gen.k3_pay1 (F := Ideal) x0 x1 x2 (ix2 p q) = Cert.Spec.final (F := Ideal) P W R (ix2 p q) := by
  rw [pay3_entry, final_entry, h2]
  exact congrArg (· + _) (Finset.sum_congr rfl fun k _ => by rw [h0, h1])

/-- What the one point writes back is the whole arrays' result. -/
theorem flushed3 (c : Dev nD) (t : Fin cfg3.N) :
    (Gen.dat3 (F := Ideal) V c).flushed 3 t = ((cfg3.win 3).blk t).view.read (Elt Ideal) (Cert.Spec.final (V c main_v71) (V c main_arg7) (V c main_v72)) := by
  show (cfg3.win 3).cut (grid3.coords t) ((Gen.dat3 (F := Ideal) V c).after 3 t) = _
  rw [Gen.after3_3]
  unfold Gen.out3_3
  rw [View.canon_unit_zero hz]
  simp only [View.ld_unit_zero (S := S1024x32) hz, View.ld_unit_zero (S := S32x2) hz, View.ld_unit_zero (S := S1x2) hz]
  obtain ⟨e00, e01, e10, e11, e20, e21, e30, e31⟩ := idx_facts3 t
  funext j
  revert j
  show ∀ y : S1024x2.Idx, Gen.k3_pay1 (F := Ideal) (iblk3 V c 0 t) (iblk3 V c 1 t) (iblk3 V c 2 t) y
    = Cert.Spec.final (F := Ideal) (V c main_v71) (V c main_arg7) (V c main_v72) (((cfg3.win 3).blk t).view.emb y)
  intro y
  obtain ⟨p, q, rfl⟩ : ∃ (p : Fin 1024) (q : Fin 2), y = ix2 p q := ⟨y 0, y 1, eq_ix2 y⟩
  have hemb : ((cfg3.win 3).blk t).view.emb (ix2 p q) = ix2 p q := by
    funext a; apply Fin.ext
    match a with
    | ⟨0, _⟩ => show win3_3.index t (0 : Fin 2) * 1024 + 1 * p.val = p.val; rw [e30]; omega
    | ⟨1, _⟩ => show win3_3.index t (1 : Fin 2) * 2 + 1 * q.val = q.val; rw [e31]; omega
  rw [hemb]
  refine block3_entry _ _ _ _ _ _ p q (fun k => ?_) (fun k q => ?_) (fun q => ?_)
  · show V c main_v71 (((cfg3.win 0).blk t).view.emb (ix2 p k)) = _
    refine congrArg _ ?_
    funext a; apply Fin.ext
    match a with
    | ⟨0, _⟩ => show win3_0.index t (0 : Fin 2) * 1024 + 1 * p.val = p.val; rw [e00]; omega
    | ⟨1, _⟩ => show win3_0.index t (1 : Fin 2) * 32 + 1 * k.val = k.val; rw [e01]; omega
  · show V c main_arg7 (((cfg3.win 1).blk t).view.emb (ix2 k q)) = _
    refine congrArg _ ?_
    funext a; apply Fin.ext
    match a with
    | ⟨0, _⟩ => show win3_1.index t (0 : Fin 2) * 32 + 1 * k.val = k.val; rw [e10]; omega
    | ⟨1, _⟩ => show win3_1.index t (1 : Fin 2) * 2 + 1 * q.val = q.val; rw [e11]; omega
  · show V c main_v72 (((cfg3.win 2).blk t).view.emb (ix2 (0 : Fin 1) q)) = _
    refine congrArg _ ?_
    funext a; apply Fin.ext
    match a with
    | ⟨0, _⟩ => show win3_2.index t (0 : Fin 2) * 1 + 1 * 0 = 0; rw [e20]
    | ⟨1, _⟩ => show win3_2.index t (1 : Fin 2) * 2 + 1 * q.val = q.val; rw [e21]; omega

/-- Every entry of the output lies in the one point's block. -/
theorem cover3 (i : S1024x2.Idx) :
    ∃ t : Fin cfg3.N, (cfg3.win 3).flush t = true ∧ i ∈ ((cfg3.win 3).blk t).view.set := by
  have hi0 : (i 0).val < 1024 := (i 0).isLt
  have hi1 : (i 1).val < 2 := (i 1).isLt
  refine ⟨Gen.t3_0, Gen.flush3_3 _, ?_⟩
  obtain ⟨-, -, -, -, -, -, e30, e31⟩ := idx_facts3 Gen.t3_0
  show i ∈ ((View.whole main_v73).slice (win3_3.rect Gen.t3_0)).set
  rw [View.set_slice_whole, Rect.mem_set_unit]
  intro a
  match a with
  | ⟨0, _⟩ =>
    show win3_3.index Gen.t3_0 (0 : Fin 2) * 1024 ≤ (i 0).val ∧ (i 0).val < win3_3.index Gen.t3_0 (0 : Fin 2) * 1024 + 1024
    rw [e30]; omega
  | ⟨1, _⟩ =>
    show win3_3.index Gen.t3_0 (1 : Fin 2) * 2 ≤ (i 1).val ∧ (i 1).val < win3_3.index Gen.t3_0 (1 : Fin 2) * 2 + 2
    rw [e31]; omega

/-- Region 3 leaves in its output array the last dense layer of the arrays it finds. -/
theorem region3 (c : Dev nD) : (Gen.dat3 (F := Ideal) V c).arrAt 3 cfg3.N = Cert.Spec.final (V c main_v71) (V c main_arg7) (V c main_v72) :=
  (Gen.dat3 (F := Ideal) V c).arrAt_eq_of_cover 3 _ (fun t _ => flushed3 V c t) cover3

end Cert.KernelIdeal.RegionValue
end
-- ==== Proof.RefOps.lean ====
/-
  The reference program's @main as two lists of host operations, in the program's order.

  @main runs two straight lines of operations one after the other, and the two applications of the activation
  x ↦ x if 0 ≤ x, 0.01 · x otherwise are written out where they occur: the scalar zero, its broadcast, the comparison
  0 ≤ x, the slope carried to its own type, its broadcast, the product slope · x, and the selection between x and the
  product — seven operations over the buffers that application names.  The whole program is the first list followed
  by the second.
-/
import proofs.«144815_j14697378087275_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first half, in order: the edge endpoints, the degrees and their inverse square
    roots, the first layer's product, the edge weights, the first message passing, the bias and the activation
    (its seven operations written out), the second layer's product, and the constant the second half starts from. -/
abbrev ops0 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x3F800000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (maximumf : (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.binary main_arg0 main_arg3 main_v14 ((fun l r => Host.dotGeneral dot_S100000x6_S6x64_S100000x64_1_0_0_1_n_n none l r) : (⟨S100000x6, .f32⟩ : BufTy).Contents (Elt F) → (⟨S6x64, .f32⟩ : BufTy).Contents (Elt F) → (⟨S100000x64, .f32⟩ : BufTy).Contents (Elt F)),
    StableHlo.nullary main_c (constantI S_ 32 0#32),
    StableHlo.unary main_c main_v15 (broadcastInDim S3300000 ![] bcast_S_S3300000 : (⟨S_, .i32⟩ : BufTy).Contents (Elt F) → (⟨S3300000, .i32⟩ : BufTy).Contents (Elt F)),
    StableHlo.binary main_v3 main_v15 main_v16 (cmpi .slt : (⟨S3300000, .i32⟩ : BufTy).Contents (Elt F) → (⟨S3300000, .i32⟩ : BufTy).Contents (Elt F) → (⟨S3300000, .i1⟩ : BufTy).Contents (Elt F)),
    StableHlo.nullary main_c_2 (constantI S_ 32 100000#32),
    StableHlo.unary main_c_2 main_v17 (broadcastInDim S3300000 ![] bcast_S_S3300000 : (⟨S_, .i32⟩ : BufTy).Contents (Elt F) → (⟨S3300000, .i32⟩ : BufTy).Contents (Elt F)),
    StableHlo.binary main_v3 main_v17 main_v18 (addi : (⟨S3300000, .i32⟩ : BufTy).Contents (Elt F) → (⟨S3300000, .i32⟩ : BufTy).Contents (Elt F) → (⟨S3300000, .i32⟩ : BufTy).Contents (Elt F)),
    StableHlo.ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v19 main_v20 (broadcastInDim S3300000x1 ![0] bcast_S3300000_S3300000x1_0 : (⟨S3300000, .i32⟩ : BufTy).Contents (Elt F) → (⟨S3300000x1, .i32⟩ : BufTy).Contents (Elt F)),
    StableHlo.binary main_v13 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_3 (constantI S_ 32 0#32),
    StableHlo.unary main_c_3 main_v22 (broadcastInDim S3300000 ![] bcast_S_S3300000 : (⟨S_, .i32⟩ : BufTy).Contents (Elt F) → (⟨S3300000, .i32⟩ : BufTy).Contents (Elt F)),
    StableHlo.binary main_v6 main_v22 main_v23 (cmpi .slt : (⟨S3300000, .i32⟩ : BufTy).Contents (Elt F) → (⟨S3300000, .i32⟩ : BufTy).Contents (Elt F) → (⟨S3300000, .i1⟩ : BufTy).Contents (Elt F)),
    StableHlo.nullary main_c_4 (constantI S_ 32 100000#32),
    StableHlo.unary main_c_4 main_v24 (broadcastInDim S3300000 ![] bcast_S_S3300000 : (⟨S_, .i32⟩ : BufTy).Contents (Elt F) → (⟨S3300000, .i32⟩ : BufTy).Contents (Elt F)),
    StableHlo.binary main_v6 main_v24 main_v25 (addi : (⟨S3300000, .i32⟩ : BufTy).Contents (Elt F) → (⟨S3300000, .i32⟩ : BufTy).Contents (Elt F) → (⟨S3300000, .i32⟩ : BufTy).Contents (Elt F)),
    StableHlo.ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v26 main_v27 (broadcastInDim S3300000x1 ![0] bcast_S3300000_S3300000x1_0 : (⟨S3300000, .i32⟩ : BufTy).Contents (Elt F) → (⟨S3300000x1, .i32⟩ : BufTy).Contents (Elt F)),
    StableHlo.binary main_v13 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v21 main_v28 main_v29 (mulf : (⟨S3300000, .f32⟩ : BufTy).Contents (Elt F) → (⟨S3300000, .f32⟩ : BufTy).Contents (Elt F) → (⟨S3300000, .f32⟩ : BufTy).Contents (Elt F)),
    StableHlo.nullary main_c_5 (constantI S_ 32 0#32),
    StableHlo.unary main_c_5 main_v30 (broadcastInDim S3300000 ![] bcast_S_S3300000 : (⟨S_, .i32⟩ : BufTy).Contents (Elt F) → (⟨S3300000, .i32⟩ : BufTy).Contents (Elt F)),
    StableHlo.binary main_v3 main_v30 main_v31 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v3 main_v32 main_v33 (addi : (⟨S3300000, .i32⟩ : BufTy).Contents (Elt F) → (⟨S3300000, .i32⟩ : BufTy).Contents (Elt F) → (⟨S3300000, .i32⟩ : BufTy).Contents (Elt F)),
    StableHlo.ternary main_v31 main_v33 main_v3 main_v34 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v34 main_v35 (broadcastInDim S3300000x1 ![0] bcast_S3300000_S3300000x1_0 : (⟨S3300000, .i32⟩ : BufTy).Contents (Elt F) → (⟨S3300000x1, .i32⟩ : BufTy).Contents (Elt F)),
    StableHlo.binary main_v14 main_v35 main_v36 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v29 main_v37 (broadcastInDim S3300000x1 ![0] bcast_S3300000_S3300000x1_0 : (⟨S3300000, .f32⟩ : BufTy).Contents (Elt F) → (⟨S3300000x1, .f32⟩ : BufTy).Contents (Elt F)),
    StableHlo.unary main_v37 main_v38 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v36 main_v38 main_v39 (mulf : (⟨S3300000x64, .f32⟩ : BufTy).Contents (Elt F) → (⟨S3300000x64, .f32⟩ : BufTy).Contents (Elt F) → (⟨S3300000x64, .f32⟩ : BufTy).Contents (Elt F)),
    StableHlo.nullary main_cst_7 (constant S_ .f32 0x00000000#32),
    StableHlo.unary main_cst_7 main_v40 (broadcastInDim S100000x64 ![] bcast_S_S100000x64 : (⟨S_, .f32⟩ : BufTy).Contents (Elt F) → (⟨S100000x64, .f32⟩ : BufTy).Contents (Elt F)),
    StableHlo.unary main_v6 main_v41 (broadcastInDim S3300000x1 ![0] bcast_S3300000_S3300000x1_0 : (⟨S3300000, .i32⟩ : BufTy).Contents (Elt F) → (⟨S3300000x1, .i32⟩ : BufTy).Contents (Elt F)),
    StableHlo.ternary main_v40 main_v41 main_v39 main_v42 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg4 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
    StableHlo.binary main_v42 main_v44 main_v45 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3C23D70A#32),
    TRef.nullary main_call0.cst (constant S_ .f32 0x00000000#32),
    TRef.unary main_call0.cst main_call0.v0 (broadcastInDim S100000x64 ![] bcast_S_S100000x64),
    TRef.binary (.of main_v45 : TRef sig ⟨S100000x64, .f32⟩) main_call0.v0 main_call0.v1 (cmpf .oge),
    TRef.unary (.of main_cst_8 : TRef sig ⟨S_, .f32⟩) main_call0.v2 id,
    TRef.unary main_call0.v2 main_call0.v3 (broadcastInDim S100000x64 ![] bcast_S_S100000x64),
    TRef.binary main_call0.v3 (.of main_v45 : TRef sig ⟨S100000x64, .f32⟩) main_call0.v4 mulf,
    TRef.ternary main_call0.v1 (.of main_v45 : TRef sig ⟨S100000x64, .f32⟩) main_call0.v4 main_call0.call0.v0 select,
    StableHlo.binary main_v46 main_arg5 main_v47 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_c_9 (constantI S_ 32 0#32) ]

/-- The operations of @main's second half, in order: the edge weights again, the second message passing, the
    bias and the activation (its seven operations written out), the sums and counts per graph, the means, and the
    last dense layer with its bias. -/
abbrev ops1 : List (HloOp τ sig (Elt F)) :=
  [ StableHlo.unary main_c_9 main_v48 (broadcastInDim S3300000 ![] bcast_S_S3300000 : (⟨S_, .i32⟩ : BufTy).Contents (Elt F) → (⟨S3300000, .i32⟩ : BufTy).Contents (Elt F)),
    StableHlo.binary main_v3 main_v48 main_v49 (cmpi .slt : (⟨S3300000, .i32⟩ : BufTy).Contents (Elt F) → (⟨S3300000, .i32⟩ : BufTy).Contents (Elt F) → (⟨S3300000, .i1⟩ : BufTy).Contents (Elt F)),
    StableHlo.nullary main_c_10 (constantI S_ 32 100000#32),
    StableHlo.unary main_c_10 main_v50 (broadcastInDim S3300000 ![] bcast_S_S3300000 : (⟨S_, .i32⟩ : BufTy).Contents (Elt F) → (⟨S3300000, .i32⟩ : BufTy).Contents (Elt F)),
    StableHlo.binary main_v3 main_v50 main_v51 (addi : (⟨S3300000, .i32⟩ : BufTy).Contents (Elt F) → (⟨S3300000, .i32⟩ : BufTy).Contents (Elt F) → (⟨S3300000, .i32⟩ : BufTy).Contents (Elt F)),
    StableHlo.ternary main_v49 main_v51 main_v3 main_v52 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v52 main_v53 (broadcastInDim S3300000x1 ![0] bcast_S3300000_S3300000x1_0 : (⟨S3300000, .i32⟩ : BufTy).Contents (Elt F) → (⟨S3300000x1, .i32⟩ : BufTy).Contents (Elt F)),
    StableHlo.binary main_v13 main_v53 main_v54 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_11 (constantI S_ 32 0#32),
    StableHlo.unary main_c_11 main_v55 (broadcastInDim S3300000 ![] bcast_S_S3300000 : (⟨S_, .i32⟩ : BufTy).Contents (Elt F) → (⟨S3300000, .i32⟩ : BufTy).Contents (Elt F)),
    StableHlo.binary main_v6 main_v55 main_v56 (cmpi .slt : (⟨S3300000, .i32⟩ : BufTy).Contents (Elt F) → (⟨S3300000, .i32⟩ : BufTy).Contents (Elt F) → (⟨S3300000, .i1⟩ : BufTy).Contents (Elt F)),
    StableHlo.nullary main_c_12 (constantI S_ 32 100000#32),
    StableHlo.unary main_c_12 main_v57 (broadcastInDim S3300000 ![] bcast_S_S3300000 : (⟨S_, .i32⟩ : BufTy).Contents (Elt F) → (⟨S3300000, .i32⟩ : BufTy).Contents (Elt F)),
    StableHlo.binary main_v6 main_v57 main_v58 (addi : (⟨S3300000, .i32⟩ : BufTy).Contents (Elt F) → (⟨S3300000, .i32⟩ : BufTy).Contents (Elt F) → (⟨S3300000, .i32⟩ : BufTy).Contents (Elt F)),
    StableHlo.ternary main_v56 main_v58 main_v6 main_v59 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v59 main_v60 (broadcastInDim S3300000x1 ![0] bcast_S3300000_S3300000x1_0 : (⟨S3300000, .i32⟩ : BufTy).Contents (Elt F) → (⟨S3300000x1, .i32⟩ : BufTy).Contents (Elt F)),
    StableHlo.binary main_v13 main_v60 main_v61 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v54 main_v61 main_v62 (mulf : (⟨S3300000, .f32⟩ : BufTy).Contents (Elt F) → (⟨S3300000, .f32⟩ : BufTy).Contents (Elt F) → (⟨S3300000, .f32⟩ : BufTy).Contents (Elt F)),
    StableHlo.nullary main_c_13 (constantI S_ 32 0#32),
    StableHlo.unary main_c_13 main_v63 (broadcastInDim S3300000 ![] bcast_S_S3300000 : (⟨S_, .i32⟩ : BufTy).Contents (Elt F) → (⟨S3300000, .i32⟩ : BufTy).Contents (Elt F)),
    StableHlo.binary main_v3 main_v63 main_v64 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v65 (broadcastInDim S3300000 ![] bcast_S_S3300000 : (⟨S_, .i32⟩ : BufTy).Contents (Elt F) → (⟨S3300000, .i32⟩ : BufTy).Contents (Elt F)),
    StableHlo.binary main_v3 main_v65 main_v66 (addi : (⟨S3300000, .i32⟩ : BufTy).Contents (Elt F) → (⟨S3300000, .i32⟩ : BufTy).Contents (Elt F) → (⟨S3300000, .i32⟩ : BufTy).Contents (Elt F)),
    StableHlo.ternary main_v64 main_v66 main_v3 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v67 main_v68 (broadcastInDim S3300000x1 ![0] bcast_S3300000_S3300000x1_0 : (⟨S3300000, .i32⟩ : BufTy).Contents (Elt F) → (⟨S3300000x1, .i32⟩ : BufTy).Contents (Elt F)),
    StableHlo.binary main_v47 main_v68 main_v69 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v62 main_v70 (broadcastInDim S3300000x1 ![0] bcast_S3300000_S3300000x1_0 : (⟨S3300000, .f32⟩ : BufTy).Contents (Elt F) → (⟨S3300000x1, .f32⟩ : BufTy).Contents (Elt F)),
    StableHlo.unary main_v70 main_v71 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v69 main_v71 main_v72 (mulf : (⟨S3300000x32, .f32⟩ : BufTy).Contents (Elt F) → (⟨S3300000x32, .f32⟩ : BufTy).Contents (Elt F) → (⟨S3300000x32, .f32⟩ : BufTy).Contents (Elt F)),
    StableHlo.nullary main_cst_15 (constant S_ .f32 0x00000000#32),
    StableHlo.unary main_cst_15 main_v73 (broadcastInDim S100000x32 ![] bcast_S_S100000x32 : (⟨S_, .f32⟩ : BufTy).Contents (Elt F) → (⟨S100000x32, .f32⟩ : BufTy).Contents (Elt F)),
    StableHlo.unary main_v6 main_v74 (broadcastInDim S3300000x1 ![0] bcast_S3300000_S3300000x1_0 : (⟨S3300000, .i32⟩ : BufTy).Contents (Elt F) → (⟨S3300000x1, .i32⟩ : BufTy).Contents (Elt F)),
    StableHlo.ternary main_v73 main_v74 main_v72 main_v75 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg6 main_v76 (broadcastInDim S1x32 ![1] bcast_S32_S1x32_1 : (⟨S32, .f32⟩ : BufTy).Contents (Elt F) → (⟨S1x32, .f32⟩ : BufTy).Contents (Elt F)),
    StableHlo.unary main_v76 main_v77 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v77 main_v78 (addf : (⟨S100000x32, .f32⟩ : BufTy).Contents (Elt F) → (⟨S100000x32, .f32⟩ : BufTy).Contents (Elt F) → (⟨S100000x32, .f32⟩ : BufTy).Contents (Elt F)),
    StableHlo.nullary main_cst_16 (constant S_ .f32 0x3C23D70A#32),
    TRef.nullary main_call1.cst (constant S_ .f32 0x00000000#32),
    TRef.unary main_call1.cst main_call1.v0 (broadcastInDim S100000x32 ![] bcast_S_S100000x32),
    TRef.binary (.of main_v78 : TRef sig ⟨S100000x32, .f32⟩) main_call1.v0 main_call1.v1 (cmpf .oge),
    TRef.unary (.of main_cst_16 : TRef sig ⟨S_, .f32⟩) main_call1.v2 id,
    TRef.unary main_call1.v2 main_call1.v3 (broadcastInDim S100000x32 ![] bcast_S_S100000x32),
    TRef.binary main_call1.v3 (.of main_v78 : TRef sig ⟨S100000x32, .f32⟩) main_call1.v4 mulf,
    TRef.ternary main_call1.v1 (.of main_v78 : TRef sig ⟨S100000x32, .f32⟩) main_call1.v4 main_call1.call0.v0 select,
    StableHlo.nullary main_cst_17 (constant S_ .f32 0x00000000#32),
    StableHlo.unary main_cst_17 main_v80 (broadcastInDim S1024x32 ![] bcast_S_S1024x32 : (⟨S_, .f32⟩ : BufTy).Contents (Elt F) → (⟨S1024x32, .f32⟩ : BufTy).Contents (Elt F)),
    StableHlo.unary main_arg2 main_v81 (broadcastInDim S100000x1 ![0] bcast_S100000_S100000x1_0 : (⟨S100000, .i32⟩ : BufTy).Contents (Elt F) → (⟨S100000x1, .i32⟩ : BufTy).Contents (Elt F)),
    StableHlo.ternary main_v80 main_v81 main_v79 main_v82 ((fun x i u => Host.scatterAdd scatter_S1024x32_S100000x1_S100000x32_1_0_0_1 x i u) : (⟨S1024x32, .f32⟩ : BufTy).Contents (Elt F) → (⟨S100000x1, .i32⟩ : BufTy).Contents (Elt F) → (⟨S100000x32, .f32⟩ : BufTy).Contents (Elt F) → (⟨S1024x32, .f32⟩ : BufTy).Contents (Elt F)),
    StableHlo.nullary main_cst_18 (constant S_ .f32 0x3F800000#32),
    StableHlo.unary main_cst_18 main_v83 (broadcastInDim S100000 ![] bcast_S_S100000 : (⟨S_, .f32⟩ : BufTy).Contents (Elt F) → (⟨S100000, .f32⟩ : BufTy).Contents (Elt F)),
    StableHlo.nullary main_cst_19 (constant S_ .f32 0x00000000#32),
    StableHlo.unary main_cst_19 main_v84 (broadcastInDim S1024 ![] bcast_S_S1024 : (⟨S_, .f32⟩ : BufTy).Contents (Elt F) → (⟨S1024, .f32⟩ : BufTy).Contents (Elt F)),
    StableHlo.unary main_arg2 main_v85 (broadcastInDim S100000x1 ![0] bcast_S100000_S100000x1_0 : (⟨S100000, .i32⟩ : BufTy).Contents (Elt F) → (⟨S100000x1, .i32⟩ : BufTy).Contents (Elt F)),
    StableHlo.ternary main_v84 main_v85 main_v83 main_v86 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    StableHlo.nullary main_cst_20 (constant S_ .f32 0x3F800000#32),
    StableHlo.unary main_cst_20 main_v87 (broadcastInDim S1024 ![] bcast_S_S1024 : (⟨S_, .f32⟩ : BufTy).Contents (Elt F) → (⟨S1024, .f32⟩ : BufTy).Contents (Elt F)),
    StableHlo.binary main_v86 main_v87 main_v88 (maximumf : (⟨S1024, .f32⟩ : BufTy).Contents (Elt F) → (⟨S1024, .f32⟩ : BufTy).Contents (Elt F) → (⟨S1024, .f32⟩ : BufTy).Contents (Elt F)),
    StableHlo.unary main_v88 main_v89 (broadcastInDim S1024x1 ![0] bcast_S1024_S1024x1_0 : (⟨S1024, .f32⟩ : BufTy).Contents (Elt F) → (⟨S1024x1, .f32⟩ : BufTy).Contents (Elt F)),
    StableHlo.unary main_v89 main_v90 (broadcastInDim S1024x32 ![0, 1] bcast_S1024x1_S1024x32_0_1 : (⟨S1024x1, .f32⟩ : BufTy).Contents (Elt F) → (⟨S1024x32, .f32⟩ : BufTy).Contents (Elt F)),
    StableHlo.binary main_v82 main_v90 main_v91 (Host.divf : (⟨S1024x32, .f32⟩ : BufTy).Contents (Elt F) → (⟨S1024x32, .f32⟩ : BufTy).Contents (Elt F) → (⟨S1024x32, .f32⟩ : BufTy).Contents (Elt F)),
    StableHlo.binary main_v91 main_arg7 main_v92 ((fun l r => Host.dotGeneral dot_S1024x32_S32x2_S1024x2_1_0_0_1_n_n none l r) : (⟨S1024x32, .f32⟩ : BufTy).Contents (Elt F) → (⟨S32x2, .f32⟩ : BufTy).Contents (Elt F) → (⟨S1024x2, .f32⟩ : BufTy).Contents (Elt F)),
    StableHlo.unary main_arg8 main_v93 (broadcastInDim S1x2 ![1] bcast_S2_S1x2_1 : (⟨S2, .f32⟩ : BufTy).Contents (Elt F) → (⟨S1x2, .f32⟩ : BufTy).Contents (Elt F)),
    StableHlo.unary main_v93 main_v94 (broadcastInDim S1024x2 ![0, 1] bcast_S1x2_S1024x2_0_1 : (⟨S1x2, .f32⟩ : BufTy).Contents (Elt F) → (⟨S1024x2, .f32⟩ : BufTy).Contents (Elt F)),
    StableHlo.binary main_v92 main_v94 main_v95 (addf : (⟨S1024x2, .f32⟩ : BufTy).Contents (Elt F) → (⟨S1024x2, .f32⟩ : BufTy).Contents (Elt F) → (⟨S1024x2, .f32⟩ : BufTy).Contents (Elt F)) ]

/-- @main's operations, in order. -/
abbrev ops : List (HloOp τ sig (Elt F)) := ops0 ++ ops1

/-- Every operation of the first half touches TensorCore references only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., nullary_bufs_sub ..⟩

/-- Every operation of the second half touches TensorCore references only. -/
theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub ..⟩

end Cert.ReferenceIdeal.RefRun

end
-- ==== Proof.RefRun.lean ====
/-
  The reference program's @main is the straight line of its operations, and its run is their fold.

  Each half of @main is the sequence of its operations by computation: the two applications of the activation unfold
  to their seven operations, and sequencing re-associates.  The program scopes no buffer and no semaphore, so from any
  memory with zero counters every weakly fair execution terminates with each buffer at the fold of the operations'
  results over the contents at launch.
-/
import proofs.«144815_j14697378087275_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The first half of @main is the sequence of its operations: the activation's definition unfolds at its
    application, and both sides are one chain of steps. -/
theorem main_part0_eq (c : Dev nD) : main_part0 (F := F) c = seq ops0 := rfl

set_option maxRecDepth 8192 in
/-- The second half of @main is the sequence of its operations. -/
theorem main_part1_eq (c : Dev nD) : main_part1 (F := F) c = seq ops1 := rfl

/-- @main is the sequence of all its operations: the two halves in turn are their concatenation run as one. -/
theorem main_eq (c : Dev nD) : main (F := F) c = seq ops := by
  show main (F := F) c = seq (ops0 ++ ops1)
  rw [seq_append, ← main_part0_eq c, ← main_part1_eq c]
  rfl

set_option maxRecDepth 8192 in
/-- No buffer of the program is scoped. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation of @main touches TensorCore references only. -/
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 8192 in
/-- Every operation of the first half determines its results. -/
theorem ops0_fresh : ∀ op ∈ (ops0 : List (HloOp τ sig (Elt F))), op.fresh = ∅ := by
  intro op h; (repeat (cases h with | head => rfl | tail _ h => ?_)); exact nomatch h

set_option maxRecDepth 8192 in
/-- Every operation of the second half determines its results. -/
theorem ops1_fresh : ∀ op ∈ (ops1 : List (HloOp τ sig (Elt F))), op.fresh = ∅ := by
  intro op h; (repeat (cases h with | head => rfl | tail _ h => ?_)); exact nomatch h

/-- From any memory with zero counters, for any float values: every weakly fair execution of @main terminates, and
    every final state has each buffer at the fold of the operations' results over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (ops0_fresh op) (ops1_fresh op))

end Cert.ReferenceIdeal.RefRun

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.RefOut.lean ====
/-
  What the reference program's run leaves in its result buffer.

  The buffer contents after the operations are a fold of the operations' results.  Read at the result buffer, the fold
  is the operations' functions composed in the program's order — the edge endpoints, the degrees and edge weights, two
  rounds of product, message passing, bias and activation, the mean over each graph, the last dense layer — and that is
  the stage-by-stage description of the computation: the two sides are the same term once the stages' definitions are
  unfolded.  The activation's operations are stated at the tensor value's type and carried to the buffer's type and
  back; the carryings are along equations that hold by computation, so they are the identity.
-/
import proofs.«144815_j14697378087275_1_alg».proof.Proof.RefOps
import proofs.«144815_j14697378087275_1_alg».proof.Proof.Spec
import proofs.«144815_j14697378087275_1_alg».proof.Proof.LibRunPieces

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather concatenate extractStridedSlice shapeCast broadcastInDim iotaInDim Host.rsqrt Host.divf in
set_option maxRecDepth 16384 in
set_option maxHeartbeats 8000000 in
/-- The fold at the result buffer is the computation's stages composed.  The fold is unrolled and each operation's
    result read at its own buffer is its function's value, at any other buffer what was there; what is left is the
    composed term, equal to the stages' by unfolding their definitions.  The gathers, scatters, slices, joins and
    broadcasts are kept folded meanwhile: the equation never looks inside them. -/
theorem out_eq (V : Valuation τ sig (Elt F)) :
    after ops V (main_v95 : DevRef τ sig) = Cert.Spec.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  show after (ops0 ++ ops1) V _ = _
  rw [Cert.Lib.RunPieces.after_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.ReferenceIdeal.RefRun

end
-- ==== Proof.RefPost.lean ====
/-
  The reference program's run, read back: the result is the computation's stages composed, the arguments unchanged.

  No operation writes an argument, so each argument's buffer ends as it started.  With the result buffer's contents
  read as the stages composed, every weakly fair execution of @main from any memory with zero counters terminates with
  the result buffer at the computation of the arguments' contents at launch, and the arguments as they were.
-/
import proofs.«144815_j14697378087275_1_alg».proof.Proof.RefRun
import proofs.«144815_j14697378087275_1_alg».proof.Proof.RefOut

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- No operation writes argument 0: it ends as it started. -/
theorem arg0_eq (V : Valuation τ sig (Elt F)) :
    after ops V (main_arg0 : DevRef τ sig) = V (main_arg0 : DevRef τ sig) := by
  show after (ops0 ++ ops1) V _ = _
  rw [Cert.Lib.RunPieces.after_append]
  after_results_simp

set_option maxRecDepth 16384 in
set_option maxHeartbeats 4000000 in
/-- No operation writes argument 1: it ends as it started. -/
theorem arg1_eq (V : Valuation τ sig (Elt F)) :
    after ops V (main_arg1 : DevRef τ sig) = V (main_arg1 : DevRef τ sig) := by
  show after (ops0 ++ ops1) V _ = _
  rw [Cert.Lib.RunPieces.after_append]
  after_results_simp

set_option maxRecDepth 16384 in
set_option maxHeartbeats 4000000 in
/-- No operation writes argument 2: it ends as it started. -/
theorem arg2_eq (V : Valuation τ sig (Elt F)) :
    after ops V (main_arg2 : DevRef τ sig) = V (main_arg2 : DevRef τ sig) := by
  show after (ops0 ++ ops1) V _ = _
  rw [Cert.Lib.RunPieces.after_append]
  after_results_simp

set_option maxRecDepth 16384 in
set_option maxHeartbeats 4000000 in
/-- No operation writes argument 3: it ends as it started. -/
theorem arg3_eq (V : Valuation τ sig (Elt F)) :
    after ops V (main_arg3 : DevRef τ sig) = V (main_arg3 : DevRef τ sig) := by
  show after (ops0 ++ ops1) V _ = _
  rw [Cert.Lib.RunPieces.after_append]
  after_results_simp

set_option maxRecDepth 16384 in
set_option maxHeartbeats 4000000 in
/-- No operation writes argument 4: it ends as it started. -/
theorem arg4_eq (V : Valuation τ sig (Elt F)) :
    after ops V (main_arg4 : DevRef τ sig) = V (main_arg4 : DevRef τ sig) := by
  show after (ops0 ++ ops1) V _ = _
  rw [Cert.Lib.RunPieces.after_append]
  after_results_simp

set_option maxRecDepth 16384 in
set_option maxHeartbeats 4000000 in
/-- No operation writes argument 5: it ends as it started. -/
theorem arg5_eq (V : Valuation τ sig (Elt F)) :
    after ops V (main_arg5 : DevRef τ sig) = V (main_arg5 : DevRef τ sig) := by
  show after (ops0 ++ ops1) V _ = _
  rw [Cert.Lib.RunPieces.after_append]
  after_results_simp

set_option maxRecDepth 16384 in
set_option maxHeartbeats 4000000 in
/-- No operation writes argument 6: it ends as it started. -/
theorem arg6_eq (V : Valuation τ sig (Elt F)) :
    after ops V (main_arg6 : DevRef τ sig) = V (main_arg6 : DevRef τ sig) := by
  show after (ops0 ++ ops1) V _ = _
  rw [Cert.Lib.RunPieces.after_append]
  after_results_simp

set_option maxRecDepth 16384 in
set_option maxHeartbeats 4000000 in
/-- No operation writes argument 7: it ends as it started. -/
theorem arg7_eq (V : Valuation τ sig (Elt F)) :
    after ops V (main_arg7 : DevRef τ sig) = V (main_arg7 : DevRef τ sig) := by
  show after (ops0 ++ ops1) V _ = _
  rw [Cert.Lib.RunPieces.after_append]
  after_results_simp

set_option maxRecDepth 16384 in
set_option maxHeartbeats 4000000 in
/-- No operation writes argument 8: it ends as it started. -/
theorem arg8_eq (V : Valuation τ sig (Elt F)) :
    after ops V (main_arg8 : DevRef τ sig) = V (main_arg8 : DevRef τ sig) := by
  show after (ops0 ++ ops1) V _ = _
  rw [Cert.Lib.RunPieces.after_append]
  after_results_simp

/-- From any memory with zero counters, for any float values: every weakly fair execution of @main terminates with
    the result buffer at the computation of the arguments' contents at launch, and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v95).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.RefRun

end
-- ==== Proof.lean ====
/-
  The certificate of a two-layer graph convolution with mean pooling: a Pallas program of four kernel regions among host
  gather / scatter stretches against its plain jnp reference, equal on the extended reals.

  Both programs compute, operation by operation, the same thing.  From the edge list and the self loops the source and
  target node of every edge, the degree of every node and an edge's weight rsqrt (max deg 1) at its source times the
  same at its target.  A layer multiplies the node features by a weight matrix, carries every source row along its edge
  scaled by the edge's weight, sums the rows arriving at each node, adds a bias row and applies x ↦ x if 0 ≤ x, else
  0.01 · x.  The second layer's rows are averaged over each graph's nodes and a last dense layer with bias gives the
  result.  The reference does all of it with host operations.  The kernel program does the gathers, the scatter-adds and
  the pooling with the same host operations, and the dense parts in four kernel regions: the first product, the first
  bias and activation with the second product, the second bias and activation — each over ten blocks of 10000 rows —
  and the last dense layer on the whole arrays.  A region narrows its operands to bf16 before a product, which changes
  nothing on the extended reals; an entry of a product reads one row of the left factor, and an entry of a bias and
  activation reads that entry and one bias entry, so the blocks of a region's output are the rows of the whole-array
  operation; a product into a zero accumulator and the host's dot_general are the same sum; a bias vector laid as a
  one-row matrix by a reshape or by a broadcast along the last axis is the same row.  No law that needs finiteness is
  used: the precondition is never opened.

  The specification (Proof/Spec.lean) names the stages.  The reference's run is its operations' fold, which is the
  specification's result by unfolding (Proof/RefOps.lean, RefRun.lean, RefOut.lean, RefPost.lean).  The kernel program's
  run ends with its result buffer at the last boundary of the fold through its stretches and regions
  (Proof/KernelRun.lean); each region leaves a stage of the specification in its output array (Proof/Region0.lean …
  Region3.lean), each stretch is a stage (Proof/Stretch.lean), and walking the fold back gives the specification's result
  of the arguments (Proof/KernelValue.lean).  The three frames are the generated frame runs, the reference's with its
  result forgotten; the ideal pass rewrote nothing, so the preservation claim is trivial.
-/
import proofs.«144815_j14697378087275_1_alg».proof.Defs
import proofs.«144815_j14697378087275_1_alg».proof.Proof.Gen.Kernel
import proofs.«144815_j14697378087275_1_alg».proof.Proof.Gen.Kernel.Skeleton
import proofs.«144815_j14697378087275_1_alg».proof.Proof.Gen.Kernel.Launch
import proofs.«144815_j14697378087275_1_alg».proof.Proof.Gen.Kernel.Points
import proofs.«144815_j14697378087275_1_alg».proof.Proof.Gen.Kernel.Frame
import proofs.«144815_j14697378087275_1_alg».proof.Proof.Gen.KernelIdeal
import proofs.«144815_j14697378087275_1_alg».proof.Proof.Gen.KernelIdeal.Skeleton
import proofs.«144815_j14697378087275_1_alg».proof.Proof.Gen.KernelIdeal.Launch
import proofs.«144815_j14697378087275_1_alg».proof.Proof.Gen.KernelIdeal.Points
import proofs.«144815_j14697378087275_1_alg».proof.Proof.Gen.KernelIdeal.Frame
import proofs.«144815_j14697378087275_1_alg».proof.Proof.Gen.ReferenceIdeal
import proofs.«144815_j14697378087275_1_alg».proof.Proof.Gen.Pre_finite_inputs
import proofs.«144815_j14697378087275_1_alg».proof.Proof.Spec
import proofs.«144815_j14697378087275_1_alg».proof.Proof.KernelRun
import proofs.«144815_j14697378087275_1_alg».proof.Proof.KernelValue
import proofs.«144815_j14697378087275_1_alg».proof.Proof.Region0
import proofs.«144815_j14697378087275_1_alg».proof.Proof.Region1
import proofs.«144815_j14697378087275_1_alg».proof.Proof.Region2
import proofs.«144815_j14697378087275_1_alg».proof.Proof.Region3
import proofs.«144815_j14697378087275_1_alg».proof.Proof.RefPost
import Idealize.ShloMosaic.Adequacy
import Idealize.ShloMosaic.Init

noncomputable section

namespace Cert.Proof

open Idealize.ShloMosaic Idealize.SL.Sem

/-- The kernel program as printed runs and gives its arguments back: the generated frame. -/
theorem frame_kernel : Cert.frame_Kernel := fun m ρ _ => Cert.Kernel.Gen.frame m ρ

/-- The idealized kernel program runs and gives its arguments back: the generated frame. -/
theorem frame_kernelIdeal : Cert.frame_KernelIdeal := fun m ρ _ => Cert.KernelIdeal.Gen.frame m ρ

/-- The reference runs and gives its arguments back: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation of the kernel program. -/
theorem preserves : Cert.preserves_Kernel_KernelIdeal := trivial

/-- On the extended reals both programs end with the specification's function of the argument arrays: the kernel
    program by its four regions' values walked back through its host stretches, the reference by its own run; from
    memories agreeing on the arguments the two results are one array. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.value m ρ c
          Cert.KernelIdeal.RegionValue.region0 Cert.KernelIdeal.RegionValue.region1
          Cert.KernelIdeal.RegionValue.region2 Cert.KernelIdeal.RegionValue.region3), (h c).2⟩)
      (Cert.KernelIdeal.KernelRun.run_named m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8⟩ := hagree c
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
